-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S65536x256 : Shape := ⟨2, ![65536, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_

variable [Facts]

def fn {F : FTy → Type} [FloatOps F] (main_arg0 : FVec F S16384x256 .f32) (main_arg1 : FVec F S65536x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S16384x256 : Shape := ⟨2, ![16384, 256]⟩
abbrev S65536x256 : Shape := ⟨2, ![65536, 256]⟩
abbrev S32x256 : Shape := ⟨2, ![32, 256]⟩
abbrev S_ : Shape := ⟨0, ![]⟩

abbrev nBuf : Table → Nat
  | .hbm => 3
  | .local .scVector .vmem => 14
  | _ => 0

abbrev bufTy : (tb : Table) → Fin (nBuf tb) → BufTy
  | .hbm, ⟨0, _⟩ => ⟨S16384x256, .f32⟩
  | .hbm, ⟨1, _⟩ => ⟨S65536x256, .f32⟩
  | .hbm, ⟨2, _⟩ => ⟨S16384x256, .f32⟩
  | .local .scVector .vmem, ⟨0, _⟩ => ⟨S32x256, .f32⟩
  | .local .scVector .vmem, ⟨1, _⟩ => ⟨S32x256, .f32⟩
  | .local .scVector .vmem, ⟨2, _⟩ => ⟨S32x256, .f32⟩
  | .local .scVector .vmem, ⟨3, _⟩ => ⟨S32x256, .f32⟩
  | .local .scVector .vmem, ⟨4, _⟩ => ⟨S32x256, .f32⟩
  | .local .scVector .vmem, ⟨5, _⟩ => ⟨S32x256, .f32⟩
  | .local .scVector .vmem, ⟨6, _⟩ => ⟨S32x256, .f32⟩
  | .local .scVector .vmem, ⟨7, _⟩ => ⟨S32x256, .f32⟩
  | .local .scVector .vmem, ⟨8, _⟩ => ⟨S32x256, .f32⟩
  | .local .scVector .vmem, ⟨9, _⟩ => ⟨S32x256, .f32⟩
  | .local .scVector .vmem, ⟨10, _⟩ => ⟨S32x256, .f32⟩
  | .local .scVector .vmem, ⟨11, _⟩ => ⟨S32x256, .f32⟩
  | .local .scVector .vmem, ⟨12, _⟩ => ⟨S32x256, .f32⟩
  | .local .scVector .vmem, ⟨13, _⟩ => ⟨S32x256, .f32⟩
  | _, _ => ⟨S16384x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  hcc0_scratch14 : 0 + S_.numel ≤ 28
  hcc0_scratch15 : 1 + S_.numel ≤ 28
  hcc0_scratch16 : 2 + S_.numel ≤ 28
  hcc0_scratch17 : 3 + S_.numel ≤ 28
  hcc0_scratch18 : 4 + S_.numel ≤ 28
  hcc0_scratch19 : 5 + S_.numel ≤ 28
  hcc0_scratch20 : 6 + S_.numel ≤ 28
  hcc0_scratch21 : 7 + S_.numel ≤ 28
  hcc0_scratch22 : 8 + S_.numel ≤ 28
  hcc0_scratch23 : 9 + S_.numel ≤ 28
  hcc0_scratch24 : 10 + S_.numel ≤ 28
  hcc0_scratch25 : 11 + S_.numel ≤ 28
  hcc0_scratch26 : 12 + S_.numel ≤ 28
  hcc0_scratch27 : 13 + S_.numel ≤ 28
  hcc0_scratch28 : 14 + S_.numel ≤ 28
  hcc0_scratch29 : 15 + S_.numel ≤ 28
  hcc0_scratch30 : 16 + S_.numel ≤ 28
  hcc0_scratch31 : 17 + S_.numel ≤ 28
  hcc0_scratch32 : 18 + S_.numel ≤ 28
  hcc0_scratch33 : 19 + S_.numel ≤ 28
  hcc0_scratch34 : 20 + S_.numel ≤ 28
  hcc0_scratch35 : 21 + S_.numel ≤ 28
  hcc0_scratch36 : 22 + S_.numel ≤ 28
  hcc0_scratch37 : 23 + S_.numel ≤ 28
  hcc0_scratch38 : 24 + S_.numel ≤ 28
  hcc0_scratch39 : 25 + S_.numel ≤ 28
  hcc0_scratch40 : 26 + S_.numel ≤ 28
  hcc0_scratch41 : 27 + S_.numel ≤ 28
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 16), ∀ a, (k0_off1 i (BitVec.ofNat 32 (32 * r.val))) a + S32x256.size a ≤ S16384x256.size a

variable [Facts₀]

abbrev cc0_scratch14 : DmaSems sig S_ := SemArray.consecutive 0 S_ hcc0_scratch14
abbrev cc0_scratch15 : DmaSems sig S_ := SemArray.consecutive 1 S_ hcc0_scratch15
abbrev cc0_scratch16 : DmaSems sig S_ := SemArray.consecutive 2 S_ hcc0_scratch16
abbrev cc0_scratch17 : DmaSems sig S_ := SemArray.consecutive 3 S_ hcc0_scratch17
abbrev cc0_scratch18 : DmaSems sig S_ := SemArray.consecutive 4 S_ hcc0_scratch18
abbrev cc0_scratch19 : DmaSems sig S_ := SemArray.consecutive 5 S_ hcc0_scratch19
abbrev cc0_scratch20 : DmaSems sig S_ := SemArray.consecutive 6 S_ hcc0_scratch20
abbrev cc0_scratch21 : DmaSems sig S_ := SemArray.consecutive 7 S_ hcc0_scratch21
abbrev cc0_scratch22 : DmaSems sig S_ := SemArray.consecutive 8 S_ hcc0_scratch22
abbrev cc0_scratch23 : DmaSems sig S_ := SemArray.consecutive 9 S_ hcc0_scratch23
abbrev cc0_scratch24 : DmaSems sig S_ := SemArray.consecutive 10 S_ hcc0_scratch24
abbrev cc0_scratch25 : DmaSems sig S_ := SemArray.consecutive 11 S_ hcc0_scratch25
abbrev cc0_scratch26 : DmaSems sig S_ := SemArray.consecutive 12 S_ hcc0_scratch26
abbrev cc0_scratch27 : DmaSems sig S_ := SemArray.consecutive 13 S_ hcc0_scratch27
abbrev cc0_scratch28 : DmaSems sig S_ := SemArray.consecutive 14 S_ hcc0_scratch28
abbrev cc0_scratch29 : DmaSems sig S_ := SemArray.consecutive 15 S_ hcc0_scratch29
abbrev cc0_scratch30 : DmaSems sig S_ := SemArray.consecutive 16 S_ hcc0_scratch30
abbrev cc0_scratch31 : DmaSems sig S_ := SemArray.consecutive 17 S_ hcc0_scratch31
abbrev cc0_scratch32 : DmaSems sig S_ := SemArray.consecutive 18 S_ hcc0_scratch32
abbrev cc0_scratch33 : DmaSems sig S_ := SemArray.consecutive 19 S_ hcc0_scratch33
abbrev cc0_scratch34 : DmaSems sig S_ := SemArray.consecutive 20 S_ hcc0_scratch34
abbrev cc0_scratch35 : DmaSems sig S_ := SemArray.consecutive 21 S_ hcc0_scratch35
abbrev cc0_scratch36 : DmaSems sig S_ := SemArray.consecutive 22 S_ hcc0_scratch36
abbrev cc0_scratch37 : DmaSems sig S_ := SemArray.consecutive 23 S_ hcc0_scratch37
abbrev cc0_scratch38 : DmaSems sig S_ := SemArray.consecutive 24 S_ hcc0_scratch38
abbrev cc0_scratch39 : DmaSems sig S_ := SemArray.consecutive 25 S_ hcc0_scratch39
abbrev cc0_scratch40 : DmaSems sig S_ := SemArray.consecutive 26 S_ hcc0_scratch40
abbrev cc0_scratch41 : DmaSems sig S_ := SemArray.consecutive 27 S_ hcc0_scratch41

class Facts : Prop extends Facts₀ where

variable [Facts]
-- ==== ReferenceIdeal.lean ====
abbrev S16384x256 : Shape := ⟨2, ![16384, 256]⟩
abbrev S65536x256 : Shape := ⟨2, ![65536, 256]⟩
abbrev S_ : Shape := ⟨0, ![]⟩
abbrev S1 : Shape := ⟨1, ![1]⟩

abbrev nBuf : Space → Nat
  | .hbm => 6
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S65536x256, .f32⟩
  | .hbm, ⟨2, _⟩ => ⟨S_, .i32⟩
  | .hbm, ⟨3, _⟩ => ⟨S1, .i32⟩
  | .hbm, ⟨4, _⟩ => ⟨S65536x256, .f32⟩
  | .hbm, ⟨5, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S1 : S_.BroadcastsInDim S1 (![] : Fin 0 → Fin S1.rank)
  slices_S65536x256_S16384x256_0_0 : S65536x256.Slices ![0, 0] S16384x256
  scatter_S65536x256_S1_S16384x256_01_n_0_0_wf : ScatterDims.WF S65536x256 S1 S16384x256 [0, 1] [] [0] 0

variable [Facts₀]

def scatter_S65536x256_S1_S16384x256_01_n_0_0 : ScatterDims S65536x256 S1 S16384x256 where
  updateWindowDims := [0, 1]
  insertedWindowDims := []
  scatterDimsToOperandDims := [0]
  indexVectorDim := 0
  wf := scatter_S65536x256_S1_S16384x256_01_n_0_0_wf

class Facts : Prop extends Facts₀ where

variable [Facts]
-- ==== Proof.KBSetup.lean ====
import proofs.«217873_g7627861918245_cont_sun_m_736_13_alg».proof.Defs
import Idealize.ShloMosaic.Lib.SparseCore.Launch
import Idealize.ShloMosaic.Lib.StableHlo.Run
import Idealize.ShloMosaic.Lib.Pipeline.Kit
import Idealize.ShloMosaic.Lib.Tactic
import proofs.«217873_g7627861918245_cont_sun_m_736_13_alg».proof.Proof.Gen.Kernel
import proofs.«217873_g7627861918245_cont_sun_m_736_13_alg».proof.Proof.Gen.Kernel.Skeleton

/-!
The row copy as the launch theorem sees it, and its geometry.

The kernel copies the 16384 rows of its first argument into its result. The rows are dealt to the 2 × 16 vector
subcores: subcore `i` of SparseCore `c` owns rows `[1024 i + 512 c, 1024 i + 512 c + 512)`, which it moves in
sixteen chunks of 32 rows, chunk `r` being rows `[1024 i + 512 c + 32 r, … + 32)`. The 512 chunks are pairwise
disjoint and cover the array; each handshake of the launch carries, per chunk, the chunk's elements of the argument
(read, and handed back unchanged) and of the result (handed back holding the argument's elements).
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev xLoc (d : Dev nD) : Loc nD τ sig := (SparseCore.T d).loc main_arg0
abbrev aLoc (d : Dev nD) : Loc nD τ sig := (SparseCore.T d).loc main_arg1
abbrev oLoc (d : Dev nD) : Loc nD τ sig := (SparseCore.T d).loc main_v0

/-- The first argument's launch contents, as contents of the result array (the two arrays have one type). -/
def copied (d : Dev nD) : Buf (Elt F) (oLoc d) := fun j => m (xLoc d) j

/-! ## The chunks -/

theorem chunk_inb (c : Fin 2) (i r : Fin 16) :
    ∀ a, (![1024 * i.val + 512 * c.val + 32 * r.val, 0] : Fin 2 → ℕ) a + S32x256.size a ≤ S16384x256.size a := by
  intro a
  have hc := c.isLt; have hi := i.isLt; have hr := r.isLt
  match a with
  | 0 => show 1024 * i.val + 512 * c.val + 32 * r.val + 32 ≤ 16384; omega
  | 1 => show 0 + 256 ≤ 256; omega

/-- Chunk `r` of vector subcore `i` of SparseCore `c`: 32 whole rows. -/
abbrev chunkRect (c : Fin 2) (i r : Fin 16) : Rect S16384x256 :=
  Rect.unit (s := S16384x256) ![1024 * i.val + 512 * c.val + 32 * r.val, 0] S32x256.size (chunk_inb c i r)

abbrev chunkSet (c : Fin 2) (i r : Fin 16) : Finset S16384x256.Idx := (chunkRect c i r).set

theorem mem_chunkSet {c : Fin 2} {i r : Fin 16} {j : S16384x256.Idx} :
    j ∈ chunkSet c i r ↔ 1024 * i.val + 512 * c.val + 32 * r.val ≤ (j 0).val ∧ (j 0).val < 1024 * i.val + 512 * c.val + 32 * r.val + 32 := by
  unfold chunkSet chunkRect
  rw [Rect.mem_set_unit]
  constructor
  · intro h; exact h 0
  · intro h a
    match a with
    | 0 => exact h
    | 1 => exact ⟨Nat.zero_le _, by have h1 : (j 1).val < 256 := (j 1).isLt; show (j 1).val < 0 + 256; omega⟩

/-- The index of the chunks: SparseCore, vector subcore, chunk. -/
abbrev CIx : Type := Fin 2 × Fin 16 × Fin 16

abbrev chunkSetOf (k : CIx) : Finset S16384x256.Idx := chunkSet k.1 k.2.1 k.2.2

theorem chunks_disjoint : ∀ k ∈ (Finset.univ : Finset CIx), ∀ k' ∈ (Finset.univ : Finset CIx), k ≠ k' → Disjoint (chunkSetOf k) (chunkSetOf k') := by
  rintro ⟨c, i, r⟩ - ⟨c', i', r'⟩ - hne
  refine Finset.disjoint_left.mpr fun j h h' => hne ?_
  have h1 := (mem_chunkSet (c := c) (i := i) (r := r)).mp h; have h2 := (mem_chunkSet (c := c') (i := i') (r := r')).mp h'
  have hc := c.isLt; have hi := i.isLt; have hr := r.isLt
  have hc' := c'.isLt; have hi' := i'.isLt; have hr' := r'.isLt
  have e1 : i.val = i'.val := by omega
  have e2 : c.val = c'.val := by omega
  have e3 : r.val = r'.val := by omega
  exact Prod.ext (Fin.ext e2) (Prod.ext (Fin.ext e1) (Fin.ext e3))

theorem chunks_cover : (Finset.univ : Finset CIx).biUnion chunkSetOf = Finset.univ := by
  refine Finset.eq_univ_iff_forall.mpr fun j => Finset.mem_biUnion.mpr ?_
  have hj : (j 0).val < 16384 := (j 0).isLt
  refine ⟨(⟨(j 0).val / 512 % 2, Nat.mod_lt _ (by decide)⟩, ⟨(j 0).val / 1024, by omega⟩, ⟨(j 0).val / 32 % 16, Nat.mod_lt _ (by decide)⟩),
    Finset.mem_univ _, mem_chunkSet.mpr ?_⟩
  show 1024 * ((j 0).val / 1024) + 512 * ((j 0).val / 512 % 2) + 32 * ((j 0).val / 32 % 16) ≤ (j 0).val
    ∧ (j 0).val < 1024 * ((j 0).val / 1024) + 512 * ((j 0).val / 512 % 2) + 32 * ((j 0).val / 32 % 16) + 32
  omega

/-! ## What the handshakes carry -/

variable [FloatOps F]

/-- A chunk's elements of the argument and of the result, as the call finds them. -/
abbrev chunkIn (d : Dev nD) (c : Fin 2) (i r : Fin 16) : sProp 𝕄 :=
  iprop((xLoc d ↦[chunkSet c i r]{fullShare} m (xLoc d)) ∗ (oLoc d ↦[chunkSet c i r]{fullShare} m (oLoc d)))
/-- and as the task leaves them: the result's holding the argument's. -/
abbrev chunkOut (d : Dev nD) (c : Fin 2) (i r : Fin 16) : sProp 𝕄 :=
  iprop((xLoc d ↦[chunkSet c i r]{fullShare} m (xLoc d)) ∗ (oLoc d ↦[chunkSet c i r]{fullShare} copied m d))

/-- The one call hands each SparseCore the chunks of its sixteen tasks, each task its sixteen chunks, and takes them
    back with the result's chunks holding the argument's elements. Nothing of the launch's is consumed by a task. -/
def P : (K (F := F)).Pay (nD := nD) (Val := Elt F) (Name := ℕ) (U := UU) where
  st := fun q d c => match q with
    | 0 => bigSep Finset.univ fun i : Fin 16 => bigSep Finset.univ fun r : Fin 16 => chunkIn m d (Fin.cast nCore_zero c) i r
  dn := fun q d c => match q with
    | 0 => bigSep Finset.univ fun i : Fin 16 => bigSep Finset.univ fun r : Fin 16 => chunkOut m d (Fin.cast nCore_zero c) i r
  go := fun q d c i => match q with
    | 0 => bigSep Finset.univ fun r : Fin 16 => chunkIn m d (Fin.cast nCore_zero c) (Fin.cast nSub_zero i) r
  td := fun q d c i => match q with
    | 0 => bigSep Finset.univ fun r : Fin 16 => chunkOut m d (Fin.cast nCore_zero c) (Fin.cast nSub_zero i) r
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.LibBigSepFin.lean ====
import Idealize.ShloMosaic.Lib.SparseCore.Launch

/-!
Big separating conjunctions over small finite index types, written out as explicit products (so that a proof can
name each factor), and a finite injective family of members split off a big separating conjunction over a finite
set: `∗_{i ∈ s} Φ i = (∗_{k : Fin n} Φ (f k)) ∗ (∗_{i ∈ s ∖ f(Fin n)} Φ i)`.
-/

noncomputable section

namespace Idealize.ShloMosaic.BigSepFin

open Idealize.SL Idealize.SL.RA Idealize.SL.BI
open scoped Idealize.SL.BI
open Idealize.SL.BI.BIBase Idealize.SL.BI.Laws Idealize.SL.ProofMode

variable {M : Type} [URA M]

/-- The members `f k` of `s`, one per `k : Fin n` and pairwise distinct, leave the conjunction over `s` as their
    own conjunction beside the conjunction over the rest of `s`. -/
theorem bigSep_split_fin {I : Type} [DecidableEq I] {n : ℕ} (s : Finset I) (f : Fin n → I) (hf : Function.Injective f)
    (hs : ∀ k, f k ∈ s) (Φ : I → sProp M) :
    bigSep s Φ = iprop((bigSep Finset.univ fun k : Fin n => Φ (f k)) ∗ bigSep (s \ Finset.univ.image f) Φ) := by
  rw [SparseCore.bigSep_sdiff_split' (t := Finset.univ.image f) (Finset.image_subset_iff.mpr fun k _ => hs k),
    SparseCore.bigSep_image_of_injOn (hf.injOn) Φ]

/-- A big separating conjunction over `Fin 14`, written out. -/
theorem bigSep_fin14 (Φ : Fin 14 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A big separating conjunction over `Fin 16`, written out. -/
theorem bigSep_fin16 (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A big separating conjunction over `Fin 28`, written out. -/
theorem bigSep_fin28 (Φ : Fin 28 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) := by
  rw [show (Finset.univ : Finset (Fin 28)) = {0, 1, 2, 3, 4, 5, 6, 7, 8, 9, 10, 11, 12, 13, 14, 15, 16, 17, 18, 19, 20, 21, 22, 23, 24, 25, 26, 27} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Idealize.ShloMosaic.BigSepFin

end
-- ==== Proof.KBGeom.lean ====
import proofs.«217873_g7627861918245_cont_sun_m_736_13_alg».proof.Proof.KBSetup
import proofs.«217873_g7627861918245_cont_sun_m_736_13_alg».proof.Proof.LibBigSepFin

/-!
A vector subcore's view of its chunks and of its own storage.

The body slices chunk `r` of its 512 rows out of the argument and out of the result at the offsets its integer
chain computes from the subcore's coordinates; the chain's closed form is
`(1024 i + 512 c + 32 r, 0)`, so the slice's elements are the chunk's. The subcore's own scoped storage is its
fourteen 32-row buffers and its twenty-eight DMA semaphores, and whatever else the region scoped for it.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.BigSepFin

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

abbrev xV : Memref sig .scVector .hbm S16384x256 .f32 := Memref.whole main_arg0_scv
abbrev oV : Memref sig .scVector .hbm S16384x256 .f32 := Memref.whole main_v0_scv
abbrev sB0 : Memref sig .scVector .vmem S32x256 .f32 := Memref.whole cc0_scratch0
abbrev sB1 : Memref sig .scVector .vmem S32x256 .f32 := Memref.whole cc0_scratch1
abbrev sB2 : Memref sig .scVector .vmem S32x256 .f32 := Memref.whole cc0_scratch2
abbrev sB3 : Memref sig .scVector .vmem S32x256 .f32 := Memref.whole cc0_scratch3
abbrev sB4 : Memref sig .scVector .vmem S32x256 .f32 := Memref.whole cc0_scratch4
abbrev sB5 : Memref sig .scVector .vmem S32x256 .f32 := Memref.whole cc0_scratch5
abbrev sB6 : Memref sig .scVector .vmem S32x256 .f32 := Memref.whole cc0_scratch6
abbrev sB7 : Memref sig .scVector .vmem S32x256 .f32 := Memref.whole cc0_scratch7
abbrev sB8 : Memref sig .scVector .vmem S32x256 .f32 := Memref.whole cc0_scratch8
abbrev sB9 : Memref sig .scVector .vmem S32x256 .f32 := Memref.whole cc0_scratch9
abbrev sB10 : Memref sig .scVector .vmem S32x256 .f32 := Memref.whole cc0_scratch10
abbrev sB11 : Memref sig .scVector .vmem S32x256 .f32 := Memref.whole cc0_scratch11
abbrev sB12 : Memref sig .scVector .vmem S32x256 .f32 := Memref.whole cc0_scratch12
abbrev sB13 : Memref sig .scVector .vmem S32x256 .f32 := Memref.whole cc0_scratch13

/-- Chunk `r`'s rectangle as the body computes it. -/
abbrev chunkR (L : grid0.Coords) (r : Fin 16) : Rect S16384x256 :=
  Rect.unit (s := S16384x256) (k0_off1 L (BitVec.ofNat 32 (32 * r.val))) S32x256.size (k0_off1_inb L r)

theorem chunkR_eq (r : Fin 16) : chunkR L r = chunkRect (cL L) (iL L) r := by
  unfold chunkR chunkRect
  congr 1
  exact k0_off1_eq L r

abbrev xCh (L : grid0.Coords) (r : Fin 16) : Memref sig .scVector .hbm S32x256 .f32 := (xV).slice (chunkR L r) (fun _ => rfl)
abbrev oCh (L : grid0.Coords) (r : Fin 16) : Memref sig .scVector .hbm S32x256 .f32 := (oV).slice (chunkR L r) (fun _ => rfl)

theorem set_xCh (r : Fin 16) : (xCh L r).view.set = chunkSet (cL L) (iL L) r := by
  show ((View.whole (main_arg0_scv : Ref sig .scVector)).slice (chunkR L r)).set = (chunkRect (cL L) (iL L) r).set
  rw [View.set_slice, chunkR_eq]; exact Finset.map_refl
theorem set_oCh (r : Fin 16) : (oCh L r).view.set = chunkSet (cL L) (iL L) r := by
  show ((View.whole (main_v0_scv : Ref sig .scVector)).slice (chunkR L r)).set = (chunkRect (cL L) (iL L) r).set
  rw [View.set_slice, chunkR_eq]; exact Finset.map_refl

theorem pts_xCh (r : Fin 16) (f : Buf (Elt F) (xLoc d)) :
    ((xCh L r).view.loc (V d (cV L) (jV L)) ↦[(xCh L r).view.set]{fullShare} f : sProp 𝕄) = xLoc d ↦[chunkSet (cL L) (iL L) r]{fullShare} f := by
  rw [set_xCh]
theorem pts_oCh (r : Fin 16) (f : Buf (Elt F) (oLoc d)) :
    ((oCh L r).view.loc (V d (cV L) (jV L)) ↦[(oCh L r).view.set]{fullShare} f : sProp 𝕄) = oLoc d ↦[chunkSet (cL L) (iL L) r]{fullShare} f := by
  rw [set_oCh]

/-! The chunks' slices at the body's own offset constants. -/
abbrev xC0 (L : grid0.Coords) : Memref sig .scVector .hbm S32x256 .f32 := (xV).slice (Rect.unit (s := S16384x256) (k0_off1 L 0#32) S32x256.size (k0_off1_inb L 0)) (fun _ => rfl)
abbrev oC0 (L : grid0.Coords) : Memref sig .scVector .hbm S32x256 .f32 := (oV).slice (Rect.unit (s := S16384x256) (k0_off1 L 0#32) S32x256.size (k0_off1_inb L 0)) (fun _ => rfl)
abbrev xC1 (L : grid0.Coords) : Memref sig .scVector .hbm S32x256 .f32 := (xV).slice (Rect.unit (s := S16384x256) (k0_off1 L 32#32) S32x256.size (k0_off1_inb L 1)) (fun _ => rfl)
abbrev oC1 (L : grid0.Coords) : Memref sig .scVector .hbm S32x256 .f32 := (oV).slice (Rect.unit (s := S16384x256) (k0_off1 L 32#32) S32x256.size (k0_off1_inb L 1)) (fun _ => rfl)
abbrev xC2 (L : grid0.Coords) : Memref sig .scVector .hbm S32x256 .f32 := (xV).slice (Rect.unit (s := S16384x256) (k0_off1 L 64#32) S32x256.size (k0_off1_inb L 2)) (fun _ => rfl)
abbrev oC2 (L : grid0.Coords) : Memref sig .scVector .hbm S32x256 .f32 := (oV).slice (Rect.unit (s := S16384x256) (k0_off1 L 64#32) S32x256.size (k0_off1_inb L 2)) (fun _ => rfl)
abbrev xC3 (L : grid0.Coords) : Memref sig .scVector .hbm S32x256 .f32 := (xV).slice (Rect.unit (s := S16384x256) (k0_off1 L 96#32) S32x256.size (k0_off1_inb L 3)) (fun _ => rfl)
abbrev oC3 (L : grid0.Coords) : Memref sig .scVector .hbm S32x256 .f32 := (oV).slice (Rect.unit (s := S16384x256) (k0_off1 L 96#32) S32x256.size (k0_off1_inb L 3)) (fun _ => rfl)
abbrev xC4 (L : grid0.Coords) : Memref sig .scVector .hbm S32x256 .f32 := (xV).slice (Rect.unit (s := S16384x256) (k0_off1 L 128#32) S32x256.size (k0_off1_inb L 4)) (fun _ => rfl)
abbrev oC4 (L : grid0.Coords) : Memref sig .scVector .hbm S32x256 .f32 := (oV).slice (Rect.unit (s := S16384x256) (k0_off1 L 128#32) S32x256.size (k0_off1_inb L 4)) (fun _ => rfl)
abbrev xC5 (L : grid0.Coords) : Memref sig .scVector .hbm S32x256 .f32 := (xV).slice (Rect.unit (s := S16384x256) (k0_off1 L 160#32) S32x256.size (k0_off1_inb L 5)) (fun _ => rfl)
abbrev oC5 (L : grid0.Coords) : Memref sig .scVector .hbm S32x256 .f32 := (oV).slice (Rect.unit (s := S16384x256) (k0_off1 L 160#32) S32x256.size (k0_off1_inb L 5)) (fun _ => rfl)
abbrev xC6 (L : grid0.Coords) : Memref sig .scVector .hbm S32x256 .f32 := (xV).slice (Rect.unit (s := S16384x256) (k0_off1 L 192#32) S32x256.size (k0_off1_inb L 6)) (fun _ => rfl)
abbrev oC6 (L : grid0.Coords) : Memref sig .scVector .hbm S32x256 .f32 := (oV).slice (Rect.unit (s := S16384x256) (k0_off1 L 192#32) S32x256.size (k0_off1_inb L 6)) (fun _ => rfl)
abbrev xC7 (L : grid0.Coords) : Memref sig .scVector .hbm S32x256 .f32 := (xV).slice (Rect.unit (s := S16384x256) (k0_off1 L 224#32) S32x256.size (k0_off1_inb L 7)) (fun _ => rfl)
abbrev oC7 (L : grid0.Coords) : Memref sig .scVector .hbm S32x256 .f32 := (oV).slice (Rect.unit (s := S16384x256) (k0_off1 L 224#32) S32x256.size (k0_off1_inb L 7)) (fun _ => rfl)
abbrev xC8 (L : grid0.Coords) : Memref sig .scVector .hbm S32x256 .f32 := (xV).slice (Rect.unit (s := S16384x256) (k0_off1 L 256#32) S32x256.size (k0_off1_inb L 8)) (fun _ => rfl)
abbrev oC8 (L : grid0.Coords) : Memref sig .scVector .hbm S32x256 .f32 := (oV).slice (Rect.unit (s := S16384x256) (k0_off1 L 256#32) S32x256.size (k0_off1_inb L 8)) (fun _ => rfl)
abbrev xC9 (L : grid0.Coords) : Memref sig .scVector .hbm S32x256 .f32 := (xV).slice (Rect.unit (s := S16384x256) (k0_off1 L 288#32) S32x256.size (k0_off1_inb L 9)) (fun _ => rfl)
abbrev oC9 (L : grid0.Coords) : Memref sig .scVector .hbm S32x256 .f32 := (oV).slice (Rect.unit (s := S16384x256) (k0_off1 L 288#32) S32x256.size (k0_off1_inb L 9)) (fun _ => rfl)
abbrev xC10 (L : grid0.Coords) : Memref sig .scVector .hbm S32x256 .f32 := (xV).slice (Rect.unit (s := S16384x256) (k0_off1 L 320#32) S32x256.size (k0_off1_inb L 10)) (fun _ => rfl)
abbrev oC10 (L : grid0.Coords) : Memref sig .scVector .hbm S32x256 .f32 := (oV).slice (Rect.unit (s := S16384x256) (k0_off1 L 320#32) S32x256.size (k0_off1_inb L 10)) (fun _ => rfl)
abbrev xC11 (L : grid0.Coords) : Memref sig .scVector .hbm S32x256 .f32 := (xV).slice (Rect.unit (s := S16384x256) (k0_off1 L 352#32) S32x256.size (k0_off1_inb L 11)) (fun _ => rfl)
abbrev oC11 (L : grid0.Coords) : Memref sig .scVector .hbm S32x256 .f32 := (oV).slice (Rect.unit (s := S16384x256) (k0_off1 L 352#32) S32x256.size (k0_off1_inb L 11)) (fun _ => rfl)
abbrev xC12 (L : grid0.Coords) : Memref sig .scVector .hbm S32x256 .f32 := (xV).slice (Rect.unit (s := S16384x256) (k0_off1 L 384#32) S32x256.size (k0_off1_inb L 12)) (fun _ => rfl)
abbrev oC12 (L : grid0.Coords) : Memref sig .scVector .hbm S32x256 .f32 := (oV).slice (Rect.unit (s := S16384x256) (k0_off1 L 384#32) S32x256.size (k0_off1_inb L 12)) (fun _ => rfl)
abbrev xC13 (L : grid0.Coords) : Memref sig .scVector .hbm S32x256 .f32 := (xV).slice (Rect.unit (s := S16384x256) (k0_off1 L 416#32) S32x256.size (k0_off1_inb L 13)) (fun _ => rfl)
abbrev oC13 (L : grid0.Coords) : Memref sig .scVector .hbm S32x256 .f32 := (oV).slice (Rect.unit (s := S16384x256) (k0_off1 L 416#32) S32x256.size (k0_off1_inb L 13)) (fun _ => rfl)
abbrev xC14 (L : grid0.Coords) : Memref sig .scVector .hbm S32x256 .f32 := (xV).slice (Rect.unit (s := S16384x256) (k0_off1 L 448#32) S32x256.size (k0_off1_inb L 14)) (fun _ => rfl)
abbrev oC14 (L : grid0.Coords) : Memref sig .scVector .hbm S32x256 .f32 := (oV).slice (Rect.unit (s := S16384x256) (k0_off1 L 448#32) S32x256.size (k0_off1_inb L 14)) (fun _ => rfl)
abbrev xC15 (L : grid0.Coords) : Memref sig .scVector .hbm S32x256 .f32 := (xV).slice (Rect.unit (s := S16384x256) (k0_off1 L 480#32) S32x256.size (k0_off1_inb L 15)) (fun _ => rfl)
abbrev oC15 (L : grid0.Coords) : Memref sig .scVector .hbm S32x256 .f32 := (oV).slice (Rect.unit (s := S16384x256) (k0_off1 L 480#32) S32x256.size (k0_off1_inb L 15)) (fun _ => rfl)

theorem pts_xC0 (f : Buf (Elt F) (xLoc d)) :
    ((xC0 L).view.loc (V d (cV L) (jV L)) ↦[(xC0 L).view.set]{fullShare} f : sProp 𝕄) = xLoc d ↦[chunkSet (cL L) (iL L) 0]{fullShare} f := pts_xCh d L 0 f
theorem pts_oC0 (f : Buf (Elt F) (oLoc d)) :
    ((oC0 L).view.loc (V d (cV L) (jV L)) ↦[(oC0 L).view.set]{fullShare} f : sProp 𝕄) = oLoc d ↦[chunkSet (cL L) (iL L) 0]{fullShare} f := pts_oCh d L 0 f
theorem pts_xC1 (f : Buf (Elt F) (xLoc d)) :
    ((xC1 L).view.loc (V d (cV L) (jV L)) ↦[(xC1 L).view.set]{fullShare} f : sProp 𝕄) = xLoc d ↦[chunkSet (cL L) (iL L) 1]{fullShare} f := pts_xCh d L 1 f
theorem pts_oC1 (f : Buf (Elt F) (oLoc d)) :
    ((oC1 L).view.loc (V d (cV L) (jV L)) ↦[(oC1 L).view.set]{fullShare} f : sProp 𝕄) = oLoc d ↦[chunkSet (cL L) (iL L) 1]{fullShare} f := pts_oCh d L 1 f
theorem pts_xC2 (f : Buf (Elt F) (xLoc d)) :
    ((xC2 L).view.loc (V d (cV L) (jV L)) ↦[(xC2 L).view.set]{fullShare} f : sProp 𝕄) = xLoc d ↦[chunkSet (cL L) (iL L) 2]{fullShare} f := pts_xCh d L 2 f
theorem pts_oC2 (f : Buf (Elt F) (oLoc d)) :
    ((oC2 L).view.loc (V d (cV L) (jV L)) ↦[(oC2 L).view.set]{fullShare} f : sProp 𝕄) = oLoc d ↦[chunkSet (cL L) (iL L) 2]{fullShare} f := pts_oCh d L 2 f
theorem pts_xC3 (f : Buf (Elt F) (xLoc d)) :
    ((xC3 L).view.loc (V d (cV L) (jV L)) ↦[(xC3 L).view.set]{fullShare} f : sProp 𝕄) = xLoc d ↦[chunkSet (cL L) (iL L) 3]{fullShare} f := pts_xCh d L 3 f
theorem pts_oC3 (f : Buf (Elt F) (oLoc d)) :
    ((oC3 L).view.loc (V d (cV L) (jV L)) ↦[(oC3 L).view.set]{fullShare} f : sProp 𝕄) = oLoc d ↦[chunkSet (cL L) (iL L) 3]{fullShare} f := pts_oCh d L 3 f
theorem pts_xC4 (f : Buf (Elt F) (xLoc d)) :
    ((xC4 L).view.loc (V d (cV L) (jV L)) ↦[(xC4 L).view.set]{fullShare} f : sProp 𝕄) = xLoc d ↦[chunkSet (cL L) (iL L) 4]{fullShare} f := pts_xCh d L 4 f
theorem pts_oC4 (f : Buf (Elt F) (oLoc d)) :
    ((oC4 L).view.loc (V d (cV L) (jV L)) ↦[(oC4 L).view.set]{fullShare} f : sProp 𝕄) = oLoc d ↦[chunkSet (cL L) (iL L) 4]{fullShare} f := pts_oCh d L 4 f
theorem pts_xC5 (f : Buf (Elt F) (xLoc d)) :
    ((xC5 L).view.loc (V d (cV L) (jV L)) ↦[(xC5 L).view.set]{fullShare} f : sProp 𝕄) = xLoc d ↦[chunkSet (cL L) (iL L) 5]{fullShare} f := pts_xCh d L 5 f
theorem pts_oC5 (f : Buf (Elt F) (oLoc d)) :
    ((oC5 L).view.loc (V d (cV L) (jV L)) ↦[(oC5 L).view.set]{fullShare} f : sProp 𝕄) = oLoc d ↦[chunkSet (cL L) (iL L) 5]{fullShare} f := pts_oCh d L 5 f
theorem pts_xC6 (f : Buf (Elt F) (xLoc d)) :
    ((xC6 L).view.loc (V d (cV L) (jV L)) ↦[(xC6 L).view.set]{fullShare} f : sProp 𝕄) = xLoc d ↦[chunkSet (cL L) (iL L) 6]{fullShare} f := pts_xCh d L 6 f
theorem pts_oC6 (f : Buf (Elt F) (oLoc d)) :
    ((oC6 L).view.loc (V d (cV L) (jV L)) ↦[(oC6 L).view.set]{fullShare} f : sProp 𝕄) = oLoc d ↦[chunkSet (cL L) (iL L) 6]{fullShare} f := pts_oCh d L 6 f
theorem pts_xC7 (f : Buf (Elt F) (xLoc d)) :
    ((xC7 L).view.loc (V d (cV L) (jV L)) ↦[(xC7 L).view.set]{fullShare} f : sProp 𝕄) = xLoc d ↦[chunkSet (cL L) (iL L) 7]{fullShare} f := pts_xCh d L 7 f
theorem pts_oC7 (f : Buf (Elt F) (oLoc d)) :
    ((oC7 L).view.loc (V d (cV L) (jV L)) ↦[(oC7 L).view.set]{fullShare} f : sProp 𝕄) = oLoc d ↦[chunkSet (cL L) (iL L) 7]{fullShare} f := pts_oCh d L 7 f
theorem pts_xC8 (f : Buf (Elt F) (xLoc d)) :
    ((xC8 L).view.loc (V d (cV L) (jV L)) ↦[(xC8 L).view.set]{fullShare} f : sProp 𝕄) = xLoc d ↦[chunkSet (cL L) (iL L) 8]{fullShare} f := pts_xCh d L 8 f
theorem pts_oC8 (f : Buf (Elt F) (oLoc d)) :
    ((oC8 L).view.loc (V d (cV L) (jV L)) ↦[(oC8 L).view.set]{fullShare} f : sProp 𝕄) = oLoc d ↦[chunkSet (cL L) (iL L) 8]{fullShare} f := pts_oCh d L 8 f
theorem pts_xC9 (f : Buf (Elt F) (xLoc d)) :
    ((xC9 L).view.loc (V d (cV L) (jV L)) ↦[(xC9 L).view.set]{fullShare} f : sProp 𝕄) = xLoc d ↦[chunkSet (cL L) (iL L) 9]{fullShare} f := pts_xCh d L 9 f
theorem pts_oC9 (f : Buf (Elt F) (oLoc d)) :
    ((oC9 L).view.loc (V d (cV L) (jV L)) ↦[(oC9 L).view.set]{fullShare} f : sProp 𝕄) = oLoc d ↦[chunkSet (cL L) (iL L) 9]{fullShare} f := pts_oCh d L 9 f
theorem pts_xC10 (f : Buf (Elt F) (xLoc d)) :
    ((xC10 L).view.loc (V d (cV L) (jV L)) ↦[(xC10 L).view.set]{fullShare} f : sProp 𝕄) = xLoc d ↦[chunkSet (cL L) (iL L) 10]{fullShare} f := pts_xCh d L 10 f
theorem pts_oC10 (f : Buf (Elt F) (oLoc d)) :
    ((oC10 L).view.loc (V d (cV L) (jV L)) ↦[(oC10 L).view.set]{fullShare} f : sProp 𝕄) = oLoc d ↦[chunkSet (cL L) (iL L) 10]{fullShare} f := pts_oCh d L 10 f
theorem pts_xC11 (f : Buf (Elt F) (xLoc d)) :
    ((xC11 L).view.loc (V d (cV L) (jV L)) ↦[(xC11 L).view.set]{fullShare} f : sProp 𝕄) = xLoc d ↦[chunkSet (cL L) (iL L) 11]{fullShare} f := pts_xCh d L 11 f
theorem pts_oC11 (f : Buf (Elt F) (oLoc d)) :
    ((oC11 L).view.loc (V d (cV L) (jV L)) ↦[(oC11 L).view.set]{fullShare} f : sProp 𝕄) = oLoc d ↦[chunkSet (cL L) (iL L) 11]{fullShare} f := pts_oCh d L 11 f
theorem pts_xC12 (f : Buf (Elt F) (xLoc d)) :
    ((xC12 L).view.loc (V d (cV L) (jV L)) ↦[(xC12 L).view.set]{fullShare} f : sProp 𝕄) = xLoc d ↦[chunkSet (cL L) (iL L) 12]{fullShare} f := pts_xCh d L 12 f
theorem pts_oC12 (f : Buf (Elt F) (oLoc d)) :
    ((oC12 L).view.loc (V d (cV L) (jV L)) ↦[(oC12 L).view.set]{fullShare} f : sProp 𝕄) = oLoc d ↦[chunkSet (cL L) (iL L) 12]{fullShare} f := pts_oCh d L 12 f
theorem pts_xC13 (f : Buf (Elt F) (xLoc d)) :
    ((xC13 L).view.loc (V d (cV L) (jV L)) ↦[(xC13 L).view.set]{fullShare} f : sProp 𝕄) = xLoc d ↦[chunkSet (cL L) (iL L) 13]{fullShare} f := pts_xCh d L 13 f
theorem pts_oC13 (f : Buf (Elt F) (oLoc d)) :
    ((oC13 L).view.loc (V d (cV L) (jV L)) ↦[(oC13 L).view.set]{fullShare} f : sProp 𝕄) = oLoc d ↦[chunkSet (cL L) (iL L) 13]{fullShare} f := pts_oCh d L 13 f
theorem pts_xC14 (f : Buf (Elt F) (xLoc d)) :
    ((xC14 L).view.loc (V d (cV L) (jV L)) ↦[(xC14 L).view.set]{fullShare} f : sProp 𝕄) = xLoc d ↦[chunkSet (cL L) (iL L) 14]{fullShare} f := pts_xCh d L 14 f
theorem pts_oC14 (f : Buf (Elt F) (oLoc d)) :
    ((oC14 L).view.loc (V d (cV L) (jV L)) ↦[(oC14 L).view.set]{fullShare} f : sProp 𝕄) = oLoc d ↦[chunkSet (cL L) (iL L) 14]{fullShare} f := pts_oCh d L 14 f
theorem pts_xC15 (f : Buf (Elt F) (xLoc d)) :
    ((xC15 L).view.loc (V d (cV L) (jV L)) ↦[(xC15 L).view.set]{fullShare} f : sProp 𝕄) = xLoc d ↦[chunkSet (cL L) (iL L) 15]{fullShare} f := pts_xCh d L 15 f
theorem pts_oC15 (f : Buf (Elt F) (oLoc d)) :
    ((oC15 L).view.loc (V d (cV L) (jV L)) ↦[(oC15 L).view.set]{fullShare} f : sProp 𝕄) = oLoc d ↦[chunkSet (cL L) (iL L) 15]{fullShare} f := pts_oCh d L 15 f

/-! ## What a copied chunk holds -/

/-- Two contents of a buffer that read the same through a view at an index agree on the element under it. -/
theorem eq_at_emb_of_read_eq {κ : Kind} {sp : Space} {s : Shape} {e : EltTy} (v : View sig κ sp s e)
    (f g : v.ty.Contents (Elt F)) (y : s.Idx) (h : v.read (Elt F) f y = v.read (Elt F) g y) : f (v.emb y) = g (v.emb y) := by
  rw [View.read_apply, View.read_apply] at h
  exact (cast_inj _).mp h

/-- The result's chunk `r`, overwritten whole with what was read off the argument's chunk `r`, holds the argument's
    elements: the two slices have one rectangle, so element `y` of the one lies under the index of element `y` of the
    other. -/
theorem chunk_copied (r : Fin 16) (g : Buf (Elt F) (oLoc d)) (w : S32x256.Idx → Elt F .f32)
    (hw : w = View.read (Elt F) (xCh L r).view (m (xLoc d))) :
    ((oCh L r).view.loc (V d (cV L) (jV L)) ↦[(oCh L r).view.set]{fullShare} (oCh L r).view.writes (Elt F) g [⟨Rect.whole S32x256, w⟩] : sProp 𝕄)
      = oLoc d ↦[chunkSet (cL L) (iL L) r]{fullShare} copied m d := by
  rw [← pts_oCh d L r (copied m d)]
  refine pointsTo_congr fun j hj => ?_
  obtain ⟨y, -, rfl⟩ := Finset.mem_map.mp hj
  refine eq_at_emb_of_read_eq (oCh L r).view _ _ y ?_
  have h1 := View.read_writes_cons_emb (oCh L r).view g (Rect.whole S32x256) w [] y
  rw [Rect.emb_whole_apply] at h1
  rw [h1, hw]
  rfl

theorem copied_C0 (g : Buf (Elt F) (oLoc d)) (w : S32x256.Idx → Elt F .f32) (hw : w = View.read (Elt F) (xC0 L).view (m (xLoc d))) :
    ((oC0 L).view.loc (V d (cV L) (jV L)) ↦[(oC0 L).view.set]{fullShare} (oC0 L).view.writes (Elt F) g [⟨Rect.whole S32x256, w⟩] : sProp 𝕄)
      = oLoc d ↦[chunkSet (cL L) (iL L) 0]{fullShare} copied m d := chunk_copied m d L 0 g w hw
theorem copied_C1 (g : Buf (Elt F) (oLoc d)) (w : S32x256.Idx → Elt F .f32) (hw : w = View.read (Elt F) (xC1 L).view (m (xLoc d))) :
    ((oC1 L).view.loc (V d (cV L) (jV L)) ↦[(oC1 L).view.set]{fullShare} (oC1 L).view.writes (Elt F) g [⟨Rect.whole S32x256, w⟩] : sProp 𝕄)
      = oLoc d ↦[chunkSet (cL L) (iL L) 1]{fullShare} copied m d := chunk_copied m d L 1 g w hw
theorem copied_C2 (g : Buf (Elt F) (oLoc d)) (w : S32x256.Idx → Elt F .f32) (hw : w = View.read (Elt F) (xC2 L).view (m (xLoc d))) :
    ((oC2 L).view.loc (V d (cV L) (jV L)) ↦[(oC2 L).view.set]{fullShare} (oC2 L).view.writes (Elt F) g [⟨Rect.whole S32x256, w⟩] : sProp 𝕄)
      = oLoc d ↦[chunkSet (cL L) (iL L) 2]{fullShare} copied m d := chunk_copied m d L 2 g w hw
theorem copied_C3 (g : Buf (Elt F) (oLoc d)) (w : S32x256.Idx → Elt F .f32) (hw : w = View.read (Elt F) (xC3 L).view (m (xLoc d))) :
    ((oC3 L).view.loc (V d (cV L) (jV L)) ↦[(oC3 L).view.set]{fullShare} (oC3 L).view.writes (Elt F) g [⟨Rect.whole S32x256, w⟩] : sProp 𝕄)
      = oLoc d ↦[chunkSet (cL L) (iL L) 3]{fullShare} copied m d := chunk_copied m d L 3 g w hw
theorem copied_C4 (g : Buf (Elt F) (oLoc d)) (w : S32x256.Idx → Elt F .f32) (hw : w = View.read (Elt F) (xC4 L).view (m (xLoc d))) :
    ((oC4 L).view.loc (V d (cV L) (jV L)) ↦[(oC4 L).view.set]{fullShare} (oC4 L).view.writes (Elt F) g [⟨Rect.whole S32x256, w⟩] : sProp 𝕄)
      = oLoc d ↦[chunkSet (cL L) (iL L) 4]{fullShare} copied m d := chunk_copied m d L 4 g w hw
theorem copied_C5 (g : Buf (Elt F) (oLoc d)) (w : S32x256.Idx → Elt F .f32) (hw : w = View.read (Elt F) (xC5 L).view (m (xLoc d))) :
    ((oC5 L).view.loc (V d (cV L) (jV L)) ↦[(oC5 L).view.set]{fullShare} (oC5 L).view.writes (Elt F) g [⟨Rect.whole S32x256, w⟩] : sProp 𝕄)
      = oLoc d ↦[chunkSet (cL L) (iL L) 5]{fullShare} copied m d := chunk_copied m d L 5 g w hw
theorem copied_C6 (g : Buf (Elt F) (oLoc d)) (w : S32x256.Idx → Elt F .f32) (hw : w = View.read (Elt F) (xC6 L).view (m (xLoc d))) :
    ((oC6 L).view.loc (V d (cV L) (jV L)) ↦[(oC6 L).view.set]{fullShare} (oC6 L).view.writes (Elt F) g [⟨Rect.whole S32x256, w⟩] : sProp 𝕄)
      = oLoc d ↦[chunkSet (cL L) (iL L) 6]{fullShare} copied m d := chunk_copied m d L 6 g w hw
theorem copied_C7 (g : Buf (Elt F) (oLoc d)) (w : S32x256.Idx → Elt F .f32) (hw : w = View.read (Elt F) (xC7 L).view (m (xLoc d))) :
    ((oC7 L).view.loc (V d (cV L) (jV L)) ↦[(oC7 L).view.set]{fullShare} (oC7 L).view.writes (Elt F) g [⟨Rect.whole S32x256, w⟩] : sProp 𝕄)
      = oLoc d ↦[chunkSet (cL L) (iL L) 7]{fullShare} copied m d := chunk_copied m d L 7 g w hw
theorem copied_C8 (g : Buf (Elt F) (oLoc d)) (w : S32x256.Idx → Elt F .f32) (hw : w = View.read (Elt F) (xC8 L).view (m (xLoc d))) :
    ((oC8 L).view.loc (V d (cV L) (jV L)) ↦[(oC8 L).view.set]{fullShare} (oC8 L).view.writes (Elt F) g [⟨Rect.whole S32x256, w⟩] : sProp 𝕄)
      = oLoc d ↦[chunkSet (cL L) (iL L) 8]{fullShare} copied m d := chunk_copied m d L 8 g w hw
theorem copied_C9 (g : Buf (Elt F) (oLoc d)) (w : S32x256.Idx → Elt F .f32) (hw : w = View.read (Elt F) (xC9 L).view (m (xLoc d))) :
    ((oC9 L).view.loc (V d (cV L) (jV L)) ↦[(oC9 L).view.set]{fullShare} (oC9 L).view.writes (Elt F) g [⟨Rect.whole S32x256, w⟩] : sProp 𝕄)
      = oLoc d ↦[chunkSet (cL L) (iL L) 9]{fullShare} copied m d := chunk_copied m d L 9 g w hw
theorem copied_C10 (g : Buf (Elt F) (oLoc d)) (w : S32x256.Idx → Elt F .f32) (hw : w = View.read (Elt F) (xC10 L).view (m (xLoc d))) :
    ((oC10 L).view.loc (V d (cV L) (jV L)) ↦[(oC10 L).view.set]{fullShare} (oC10 L).view.writes (Elt F) g [⟨Rect.whole S32x256, w⟩] : sProp 𝕄)
      = oLoc d ↦[chunkSet (cL L) (iL L) 10]{fullShare} copied m d := chunk_copied m d L 10 g w hw
theorem copied_C11 (g : Buf (Elt F) (oLoc d)) (w : S32x256.Idx → Elt F .f32) (hw : w = View.read (Elt F) (xC11 L).view (m (xLoc d))) :
    ((oC11 L).view.loc (V d (cV L) (jV L)) ↦[(oC11 L).view.set]{fullShare} (oC11 L).view.writes (Elt F) g [⟨Rect.whole S32x256, w⟩] : sProp 𝕄)
      = oLoc d ↦[chunkSet (cL L) (iL L) 11]{fullShare} copied m d := chunk_copied m d L 11 g w hw
theorem copied_C12 (g : Buf (Elt F) (oLoc d)) (w : S32x256.Idx → Elt F .f32) (hw : w = View.read (Elt F) (xC12 L).view (m (xLoc d))) :
    ((oC12 L).view.loc (V d (cV L) (jV L)) ↦[(oC12 L).view.set]{fullShare} (oC12 L).view.writes (Elt F) g [⟨Rect.whole S32x256, w⟩] : sProp 𝕄)
      = oLoc d ↦[chunkSet (cL L) (iL L) 12]{fullShare} copied m d := chunk_copied m d L 12 g w hw
theorem copied_C13 (g : Buf (Elt F) (oLoc d)) (w : S32x256.Idx → Elt F .f32) (hw : w = View.read (Elt F) (xC13 L).view (m (xLoc d))) :
    ((oC13 L).view.loc (V d (cV L) (jV L)) ↦[(oC13 L).view.set]{fullShare} (oC13 L).view.writes (Elt F) g [⟨Rect.whole S32x256, w⟩] : sProp 𝕄)
      = oLoc d ↦[chunkSet (cL L) (iL L) 13]{fullShare} copied m d := chunk_copied m d L 13 g w hw
theorem copied_C14 (g : Buf (Elt F) (oLoc d)) (w : S32x256.Idx → Elt F .f32) (hw : w = View.read (Elt F) (xC14 L).view (m (xLoc d))) :
    ((oC14 L).view.loc (V d (cV L) (jV L)) ↦[(oC14 L).view.set]{fullShare} (oC14 L).view.writes (Elt F) g [⟨Rect.whole S32x256, w⟩] : sProp 𝕄)
      = oLoc d ↦[chunkSet (cL L) (iL L) 14]{fullShare} copied m d := chunk_copied m d L 14 g w hw
theorem copied_C15 (g : Buf (Elt F) (oLoc d)) (w : S32x256.Idx → Elt F .f32) (hw : w = View.read (Elt F) (xC15 L).view (m (xLoc d))) :
    ((oC15 L).view.loc (V d (cV L) (jV L)) ↦[(oC15 L).view.set]{fullShare} (oC15 L).view.writes (Elt F) g [⟨Rect.whole S32x256, w⟩] : sProp 𝕄)
      = oLoc d ↦[chunkSet (cL L) (iL L) 15]{fullShare} copied m d := chunk_copied m d L 15 g w hw

/-! The subcore's buffers, as the body's whole memrefs address them. -/
theorem pts_sB0 (f : Buf (Elt F) ((V d (cV L) (jV L)).loc cc0_scratch0)) :
    ((sB0 : Memref sig .scVector .vmem S32x256 .f32).view.loc (V d (cV L) (jV L)) ↦{fullShare} f : sProp 𝕄) = (V d (cV L) (jV L)).loc cc0_scratch0 ↦{fullShare} f := rfl
theorem pts_sB1 (f : Buf (Elt F) ((V d (cV L) (jV L)).loc cc0_scratch1)) :
    ((sB1 : Memref sig .scVector .vmem S32x256 .f32).view.loc (V d (cV L) (jV L)) ↦{fullShare} f : sProp 𝕄) = (V d (cV L) (jV L)).loc cc0_scratch1 ↦{fullShare} f := rfl
theorem pts_sB2 (f : Buf (Elt F) ((V d (cV L) (jV L)).loc cc0_scratch2)) :
    ((sB2 : Memref sig .scVector .vmem S32x256 .f32).view.loc (V d (cV L) (jV L)) ↦{fullShare} f : sProp 𝕄) = (V d (cV L) (jV L)).loc cc0_scratch2 ↦{fullShare} f := rfl
theorem pts_sB3 (f : Buf (Elt F) ((V d (cV L) (jV L)).loc cc0_scratch3)) :
    ((sB3 : Memref sig .scVector .vmem S32x256 .f32).view.loc (V d (cV L) (jV L)) ↦{fullShare} f : sProp 𝕄) = (V d (cV L) (jV L)).loc cc0_scratch3 ↦{fullShare} f := rfl
theorem pts_sB4 (f : Buf (Elt F) ((V d (cV L) (jV L)).loc cc0_scratch4)) :
    ((sB4 : Memref sig .scVector .vmem S32x256 .f32).view.loc (V d (cV L) (jV L)) ↦{fullShare} f : sProp 𝕄) = (V d (cV L) (jV L)).loc cc0_scratch4 ↦{fullShare} f := rfl
theorem pts_sB5 (f : Buf (Elt F) ((V d (cV L) (jV L)).loc cc0_scratch5)) :
    ((sB5 : Memref sig .scVector .vmem S32x256 .f32).view.loc (V d (cV L) (jV L)) ↦{fullShare} f : sProp 𝕄) = (V d (cV L) (jV L)).loc cc0_scratch5 ↦{fullShare} f := rfl
theorem pts_sB6 (f : Buf (Elt F) ((V d (cV L) (jV L)).loc cc0_scratch6)) :
    ((sB6 : Memref sig .scVector .vmem S32x256 .f32).view.loc (V d (cV L) (jV L)) ↦{fullShare} f : sProp 𝕄) = (V d (cV L) (jV L)).loc cc0_scratch6 ↦{fullShare} f := rfl
theorem pts_sB7 (f : Buf (Elt F) ((V d (cV L) (jV L)).loc cc0_scratch7)) :
    ((sB7 : Memref sig .scVector .vmem S32x256 .f32).view.loc (V d (cV L) (jV L)) ↦{fullShare} f : sProp 𝕄) = (V d (cV L) (jV L)).loc cc0_scratch7 ↦{fullShare} f := rfl
theorem pts_sB8 (f : Buf (Elt F) ((V d (cV L) (jV L)).loc cc0_scratch8)) :
    ((sB8 : Memref sig .scVector .vmem S32x256 .f32).view.loc (V d (cV L) (jV L)) ↦{fullShare} f : sProp 𝕄) = (V d (cV L) (jV L)).loc cc0_scratch8 ↦{fullShare} f := rfl
theorem pts_sB9 (f : Buf (Elt F) ((V d (cV L) (jV L)).loc cc0_scratch9)) :
    ((sB9 : Memref sig .scVector .vmem S32x256 .f32).view.loc (V d (cV L) (jV L)) ↦{fullShare} f : sProp 𝕄) = (V d (cV L) (jV L)).loc cc0_scratch9 ↦{fullShare} f := rfl
theorem pts_sB10 (f : Buf (Elt F) ((V d (cV L) (jV L)).loc cc0_scratch10)) :
    ((sB10 : Memref sig .scVector .vmem S32x256 .f32).view.loc (V d (cV L) (jV L)) ↦{fullShare} f : sProp 𝕄) = (V d (cV L) (jV L)).loc cc0_scratch10 ↦{fullShare} f := rfl
theorem pts_sB11 (f : Buf (Elt F) ((V d (cV L) (jV L)).loc cc0_scratch11)) :
    ((sB11 : Memref sig .scVector .vmem S32x256 .f32).view.loc (V d (cV L) (jV L)) ↦{fullShare} f : sProp 𝕄) = (V d (cV L) (jV L)).loc cc0_scratch11 ↦{fullShare} f := rfl
theorem pts_sB12 (f : Buf (Elt F) ((V d (cV L) (jV L)).loc cc0_scratch12)) :
    ((sB12 : Memref sig .scVector .vmem S32x256 .f32).view.loc (V d (cV L) (jV L)) ↦{fullShare} f : sProp 𝕄) = (V d (cV L) (jV L)).loc cc0_scratch12 ↦{fullShare} f := rfl
theorem pts_sB13 (f : Buf (Elt F) ((V d (cV L) (jV L)).loc cc0_scratch13)) :
    ((sB13 : Memref sig .scVector .vmem S32x256 .f32).view.loc (V d (cV L) (jV L)) ↦{fullShare} f : sProp 𝕄) = (V d (cV L) (jV L)).loc cc0_scratch13 ↦{fullShare} f := rfl

/-! ## The subcore's own scoped storage -/

theorem dma_scoped : ∀ k : Fin 28, (SemLoc.dma k : SemLoc sig).isScoped .scVector = true := by decide

/-- The subcore's own semaphores at zero: its twenty-eight DMA semaphores, and the rest. -/
theorem ownSems0_V :
    (ownSems0 (V d (cV L) (jV L)) : sProp 𝕄)
      = iprop((semVal (V d (cV L) (jV L), .dma cc0_scratch14.sem) 0
          ∗ semVal (V d (cV L) (jV L), .dma cc0_scratch15.sem) 0
          ∗ semVal (V d (cV L) (jV L), .dma cc0_scratch16.sem) 0
          ∗ semVal (V d (cV L) (jV L), .dma cc0_scratch17.sem) 0
          ∗ semVal (V d (cV L) (jV L), .dma cc0_scratch18.sem) 0
          ∗ semVal (V d (cV L) (jV L), .dma cc0_scratch19.sem) 0
          ∗ semVal (V d (cV L) (jV L), .dma cc0_scratch20.sem) 0
          ∗ semVal (V d (cV L) (jV L), .dma cc0_scratch21.sem) 0
          ∗ semVal (V d (cV L) (jV L), .dma cc0_scratch22.sem) 0
          ∗ semVal (V d (cV L) (jV L), .dma cc0_scratch23.sem) 0
          ∗ semVal (V d (cV L) (jV L), .dma cc0_scratch24.sem) 0
          ∗ semVal (V d (cV L) (jV L), .dma cc0_scratch25.sem) 0
          ∗ semVal (V d (cV L) (jV L), .dma cc0_scratch26.sem) 0
          ∗ semVal (V d (cV L) (jV L), .dma cc0_scratch27.sem) 0
          ∗ semVal (V d (cV L) (jV L), .dma cc0_scratch28.sem) 0
          ∗ semVal (V d (cV L) (jV L), .dma cc0_scratch29.sem) 0
          ∗ semVal (V d (cV L) (jV L), .dma cc0_scratch30.sem) 0
          ∗ semVal (V d (cV L) (jV L), .dma cc0_scratch31.sem) 0
          ∗ semVal (V d (cV L) (jV L), .dma cc0_scratch32.sem) 0
          ∗ semVal (V d (cV L) (jV L), .dma cc0_scratch33.sem) 0
          ∗ semVal (V d (cV L) (jV L), .dma cc0_scratch34.sem) 0
          ∗ semVal (V d (cV L) (jV L), .dma cc0_scratch35.sem) 0
          ∗ semVal (V d (cV L) (jV L), .dma cc0_scratch36.sem) 0
          ∗ semVal (V d (cV L) (jV L), .dma cc0_scratch37.sem) 0
          ∗ semVal (V d (cV L) (jV L), .dma cc0_scratch38.sem) 0
          ∗ semVal (V d (cV L) (jV L), .dma cc0_scratch39.sem) 0
          ∗ semVal (V d (cV L) (jV L), .dma cc0_scratch40.sem) 0
          ∗ semVal (V d (cV L) (jV L), .dma cc0_scratch41.sem) 0)
          ∗ bigSep (ownCells (V d (cV L) (jV L)) \ Finset.univ.image fun k : Fin 28 => ((V d (cV L) (jV L), SemLoc.dma k) : GSem nD τ sig))
              fun g => semVal g 0) := by
  unfold SparseCore.Cfg.ownSems0
  rw [bigSep_split_fin (ownCells (V d (cV L) (jV L))) (fun k : Fin 28 => ((V d (cV L) (jV L), SemLoc.dma k) : GSem nD τ sig))
      (fun a b e => by injection e with _ e2; injection e2) (fun k => mem_ownCells.mpr ⟨rfl, dma_scoped k⟩), bigSep_fin28]
  rfl

theorem sref_names : ∀ k : Fin 14, sig.names .scVector .vmem k = true := by decide
/-- The subcore's `k`-th vector-memory buffer. -/
abbrev sref (k : Fin 14) : Ref sig .scVector := ⟨.vmem, k, sref_names k⟩

/-- The subcore's own buffers, each whole at some contents: its fourteen 32-row buffers, and the rest. -/
theorem ownBufs_V :
    (ownBufs (V d (cV L) (jV L)) : sProp 𝕄)
      = iprop(((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ (∃ f, (V d (cV L) (jV L)).loc cc0_scratch10 ↦{fullShare} f)
          ∗ (∃ f, (V d (cV L) (jV L)).loc cc0_scratch11 ↦{fullShare} f)
          ∗ (∃ f, (V d (cV L) (jV L)).loc cc0_scratch12 ↦{fullShare} f)
          ∗ (∃ f, (V d (cV L) (jV L)).loc cc0_scratch13 ↦{fullShare} f))
          ∗ bigSep (ownRefs (τ := τ) (.scVector (cV L) (jV L)) \ Finset.univ.image fun k : Fin 14 => (Proc.scVector (cV L) (jV L)).devRef (sref k))
              fun b => iprop(∃ f, ((d, b) : Loc nD τ sig) ↦{fullShare} f)) := by
  unfold SparseCore.Cfg.ownBufs
  rw [bigSep_split_fin (ownRefs (τ := τ) (.scVector (cV L) (jV L))) (fun k : Fin 14 => (Proc.scVector (cV L) (jV L)).devRef (sref k))
      (fun a b e => Fin.ext (congrArg (fun r : Ref sig .scVector => r.idx.val) (Proc.devRef_injective _ e)))
      (fun k => SparseCore.Cfg.mem_ownRefs_of_owner (p := Proc.scVector (cV L) (jV L)) (b := (Proc.scVector (cV L) (jV L)).devRef (sref k)) rfl), bigSep_fin14]

end Tile

end Cert.Proof.KB

end
-- ==== Proof.KBTile.lean ====
import proofs.«217873_g7627861918245_cont_sun_m_736_13_alg».proof.Proof.KBGeom

/-!
One vector subcore's task: its sixteen chunks copied from the argument to the result through its fourteen buffers.

Chunk `r` goes through buffer `r mod 14`, in on the buffer's in-semaphore, out on its out-semaphore. The first
fourteen in-copies are started together, each on its own semaphore into its own buffer; then, chunk by chunk, the
in-copy is waited for and the out-copy started; chunks 0 and 1 wait for their out-copy at once and start the
in-copies of chunks 14 and 15 into the buffers just emptied; the remaining fourteen out-copies are waited for at the
end. At any moment a semaphore has at most one copy outstanding and no buffer or chunk is touched between a copy's
start and its wait, so each wait returns the copy's source unchanged and its destination holding the source's
elements: after the out-copy of chunk `r`, the result's chunk `r` holds the argument's chunk `r`.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.BigSepFin

variable {F : FTy → Type}

local notation "𝕄" => MT nD τ sig (HIx 1) (Elt F) ℕ UU ℕ

/-- `W'` is `W` and waits recorded at the kernel's own index. -/
def WaitsGrow (W W' : Waits sig (HIx 1)) : Prop := ∀ p ∈ W', p ∈ W ∨ p.2 = none
theorem WaitsGrow.refl (W : Waits sig (HIx 1)) : WaitsGrow W W := fun _ hp => .inl hp
theorem WaitsGrow.insert {W W' : Waits sig (HIx 1)} (h : WaitsGrow W W') (sm : SemLoc sig) : WaitsGrow W (insert (sm, none) W') := by
  intro p hp
  rcases Finset.mem_insert.mp hp with rfl | hp
  · exact .inr rfl
  · exact h p hp

variable (m : (ℓ : Loc nD τ sig) → Buf (Elt F) ℓ) [FloatOps F]

section Tile

variable (d : Dev nD) (L : grid0.Coords)

theorem tile_body (hF : (K (F := F)).Facts) (O : CellTallies nD τ sig (HIx 1)) (W : Waits sig (HIx 1)) (hO : ∀ g, O g none = 0) :
    iprop(levAts (K (F := F)).L (K (F := F)).lev ∗ emp
        ∗ (bigSep Finset.univ fun r : Fin 16 => chunkIn m d (cL L) (iL L) r)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) oV (Memref.isWhole_whole _) sB0 (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _) sB9 (Memref.isWhole_whole _) sB10 (Memref.isWhole_whole _) sB11 (Memref.isWhole_whole _) sB12 (Memref.isWhole_whole _) sB13 (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41)
          fun _ => iprop((bigSep Finset.univ fun r : Fin 16 => chunkOut m d (cL L) (iL L) r) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V,
    bigSep_fin16, bigSep_fin16]
  iintro ⟨#Hlv, -, ⟨⟨Hx0, Ho0⟩, ⟨Hx1, Ho1⟩, ⟨Hx2, Ho2⟩, ⟨Hx3, Ho3⟩, ⟨Hx4, Ho4⟩, ⟨Hx5, Ho5⟩, ⟨Hx6, Ho6⟩, ⟨Hx7, Ho7⟩, ⟨Hx8, Ho8⟩, ⟨Hx9, Ho9⟩, ⟨Hx10, Ho10⟩, ⟨Hx11, Ho11⟩, ⟨Hx12, Ho12⟩, ⟨Hx13, Ho13⟩, ⟨Hx14, Ho14⟩, ⟨Hx15, Ho15⟩⟩,
    ⟨⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, ⟨%fb10, Hb10⟩, ⟨%fb11, Hb11⟩, ⟨%fb12, Hb12⟩, ⟨%fb13, Hb13⟩⟩, Hbufs⟩,
    ⟨⟨Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41⟩, Hsems⟩, HO⟩
  ihave Hmw := ((K (F := F)).mayWaits_none (thr := V d (cV L) (jV L)) hO) $$ Hlv
  ihave Hx0 := (Entails.of_eq (pts_xC0 (F := F) d L _).symm) $$ Hx0
  ihave Ho0 := (Entails.of_eq (pts_oC0 (F := F) d L _).symm) $$ Ho0
  ihave Hx1 := (Entails.of_eq (pts_xC1 (F := F) d L _).symm) $$ Hx1
  ihave Ho1 := (Entails.of_eq (pts_oC1 (F := F) d L _).symm) $$ Ho1
  ihave Hx2 := (Entails.of_eq (pts_xC2 (F := F) d L _).symm) $$ Hx2
  ihave Ho2 := (Entails.of_eq (pts_oC2 (F := F) d L _).symm) $$ Ho2
  ihave Hx3 := (Entails.of_eq (pts_xC3 (F := F) d L _).symm) $$ Hx3
  ihave Ho3 := (Entails.of_eq (pts_oC3 (F := F) d L _).symm) $$ Ho3
  ihave Hx4 := (Entails.of_eq (pts_xC4 (F := F) d L _).symm) $$ Hx4
  ihave Ho4 := (Entails.of_eq (pts_oC4 (F := F) d L _).symm) $$ Ho4
  ihave Hx5 := (Entails.of_eq (pts_xC5 (F := F) d L _).symm) $$ Hx5
  ihave Ho5 := (Entails.of_eq (pts_oC5 (F := F) d L _).symm) $$ Ho5
  ihave Hx6 := (Entails.of_eq (pts_xC6 (F := F) d L _).symm) $$ Hx6
  ihave Ho6 := (Entails.of_eq (pts_oC6 (F := F) d L _).symm) $$ Ho6
  ihave Hx7 := (Entails.of_eq (pts_xC7 (F := F) d L _).symm) $$ Hx7
  ihave Ho7 := (Entails.of_eq (pts_oC7 (F := F) d L _).symm) $$ Ho7
  ihave Hx8 := (Entails.of_eq (pts_xC8 (F := F) d L _).symm) $$ Hx8
  ihave Ho8 := (Entails.of_eq (pts_oC8 (F := F) d L _).symm) $$ Ho8
  ihave Hx9 := (Entails.of_eq (pts_xC9 (F := F) d L _).symm) $$ Hx9
  ihave Ho9 := (Entails.of_eq (pts_oC9 (F := F) d L _).symm) $$ Ho9
  ihave Hx10 := (Entails.of_eq (pts_xC10 (F := F) d L _).symm) $$ Hx10
  ihave Ho10 := (Entails.of_eq (pts_oC10 (F := F) d L _).symm) $$ Ho10
  ihave Hx11 := (Entails.of_eq (pts_xC11 (F := F) d L _).symm) $$ Hx11
  ihave Ho11 := (Entails.of_eq (pts_oC11 (F := F) d L _).symm) $$ Ho11
  ihave Hx12 := (Entails.of_eq (pts_xC12 (F := F) d L _).symm) $$ Hx12
  ihave Ho12 := (Entails.of_eq (pts_oC12 (F := F) d L _).symm) $$ Ho12
  ihave Hx13 := (Entails.of_eq (pts_xC13 (F := F) d L _).symm) $$ Hx13
  ihave Ho13 := (Entails.of_eq (pts_oC13 (F := F) d L _).symm) $$ Ho13
  ihave Hx14 := (Entails.of_eq (pts_xC14 (F := F) d L _).symm) $$ Hx14
  ihave Ho14 := (Entails.of_eq (pts_oC14 (F := F) d L _).symm) $$ Ho14
  ihave Hx15 := (Entails.of_eq (pts_xC15 (F := F) d L _).symm) $$ Hx15
  ihave Ho15 := (Entails.of_eq (pts_oC15 (F := F) d L _).symm) $$ Ho15
  ihave Hb0 := (Entails.of_eq (pts_sB0 (F := F) d L _).symm) $$ Hb0
  ihave Hb1 := (Entails.of_eq (pts_sB1 (F := F) d L _).symm) $$ Hb1
  ihave Hb2 := (Entails.of_eq (pts_sB2 (F := F) d L _).symm) $$ Hb2
  ihave Hb3 := (Entails.of_eq (pts_sB3 (F := F) d L _).symm) $$ Hb3
  ihave Hb4 := (Entails.of_eq (pts_sB4 (F := F) d L _).symm) $$ Hb4
  ihave Hb5 := (Entails.of_eq (pts_sB5 (F := F) d L _).symm) $$ Hb5
  ihave Hb6 := (Entails.of_eq (pts_sB6 (F := F) d L _).symm) $$ Hb6
  ihave Hb7 := (Entails.of_eq (pts_sB7 (F := F) d L _).symm) $$ Hb7
  ihave Hb8 := (Entails.of_eq (pts_sB8 (F := F) d L _).symm) $$ Hb8
  ihave Hb9 := (Entails.of_eq (pts_sB9 (F := F) d L _).symm) $$ Hb9
  ihave Hb10 := (Entails.of_eq (pts_sB10 (F := F) d L _).symm) $$ Hb10
  ihave Hb11 := (Entails.of_eq (pts_sB11 (F := F) d L _).symm) $$ Hb11
  ihave Hb12 := (Entails.of_eq (pts_sB12 (F := F) d L _).symm) $$ Hb12
  ihave Hb13 := (Entails.of_eq (pts_sB13 (F := F) d L _).symm) $$ Hb13
  sl_exec
  sl_step
  isplitl [Hx0 Ho0 Hx1 Ho1 Hx2 Ho2 Hx3 Ho3 Hx4 Ho4 Hx5 Ho5 Hx6 Ho6 Hx7 Ho7 Hx8 Ho8 Hx9 Ho9 Hx10 Ho10 Hx11 Ho11 Hx12 Ho12 Hx13 Ho13 Hx14 Ho14 Hx15 Ho15]
  · isplitl [Hx0 Ho0]
    · isplitl [Hx0]
      · iapply (Entails.of_eq (pts_xC0 (F := F) d L _)); iexact Hx0
      have hw : tile_body.sl.dma0_14 m d L fb0 = View.read (Elt F) (xC0 L).view (m (xLoc d)) := by
        unfold tile_body.sl.dma0_14 tile_body.sl.dma0
        simp only [ReadAs.apply_same, View.read_write_univ]
      iapply (Entails.of_eq (copied_C0 (F := F) m d L _ _ hw)); iexact Ho0
    isplitl [Hx1 Ho1]
    · isplitl [Hx1]
      · iapply (Entails.of_eq (pts_xC1 (F := F) d L _)); iexact Hx1
      have hw : tile_body.sl.dma0_16 m d L fb1 = View.read (Elt F) (xC1 L).view (m (xLoc d)) := by
        unfold tile_body.sl.dma0_16 tile_body.sl.dma0_1
        simp only [ReadAs.apply_same, View.read_write_univ]
      iapply (Entails.of_eq (copied_C1 (F := F) m d L _ _ hw)); iexact Ho1
    isplitl [Hx2 Ho2]
    · isplitl [Hx2]
      · iapply (Entails.of_eq (pts_xC2 (F := F) d L _)); iexact Hx2
      have hw : tile_body.sl.dma0_18 m d L fb2 = View.read (Elt F) (xC2 L).view (m (xLoc d)) := by
        unfold tile_body.sl.dma0_18 tile_body.sl.dma0_2
        simp only [ReadAs.apply_same, View.read_write_univ]
      iapply (Entails.of_eq (copied_C2 (F := F) m d L _ _ hw)); iexact Ho2
    isplitl [Hx3 Ho3]
    · isplitl [Hx3]
      · iapply (Entails.of_eq (pts_xC3 (F := F) d L _)); iexact Hx3
      have hw : tile_body.sl.dma0_19 m d L fb3 = View.read (Elt F) (xC3 L).view (m (xLoc d)) := by
        unfold tile_body.sl.dma0_19 tile_body.sl.dma0_3
        simp only [ReadAs.apply_same, View.read_write_univ]
      iapply (Entails.of_eq (copied_C3 (F := F) m d L _ _ hw)); iexact Ho3
    isplitl [Hx4 Ho4]
    · isplitl [Hx4]
      · iapply (Entails.of_eq (pts_xC4 (F := F) d L _)); iexact Hx4
      have hw : tile_body.sl.dma0_20 m d L fb4 = View.read (Elt F) (xC4 L).view (m (xLoc d)) := by
        unfold tile_body.sl.dma0_20 tile_body.sl.dma0_4
        simp only [ReadAs.apply_same, View.read_write_univ]
      iapply (Entails.of_eq (copied_C4 (F := F) m d L _ _ hw)); iexact Ho4
    isplitl [Hx5 Ho5]
    · isplitl [Hx5]
      · iapply (Entails.of_eq (pts_xC5 (F := F) d L _)); iexact Hx5
      have hw : tile_body.sl.dma0_21 m d L fb5 = View.read (Elt F) (xC5 L).view (m (xLoc d)) := by
        unfold tile_body.sl.dma0_21 tile_body.sl.dma0_5
        simp only [ReadAs.apply_same, View.read_write_univ]
      iapply (Entails.of_eq (copied_C5 (F := F) m d L _ _ hw)); iexact Ho5
    isplitl [Hx6 Ho6]
    · isplitl [Hx6]
      · iapply (Entails.of_eq (pts_xC6 (F := F) d L _)); iexact Hx6
      have hw : tile_body.sl.dma0_22 m d L fb6 = View.read (Elt F) (xC6 L).view (m (xLoc d)) := by
        unfold tile_body.sl.dma0_22 tile_body.sl.dma0_6
        simp only [ReadAs.apply_same, View.read_write_univ]
      iapply (Entails.of_eq (copied_C6 (F := F) m d L _ _ hw)); iexact Ho6
    isplitl [Hx7 Ho7]
    · isplitl [Hx7]
      · iapply (Entails.of_eq (pts_xC7 (F := F) d L _)); iexact Hx7
      have hw : tile_body.sl.dma0_23 m d L fb7 = View.read (Elt F) (xC7 L).view (m (xLoc d)) := by
        unfold tile_body.sl.dma0_23 tile_body.sl.dma0_7
        simp only [ReadAs.apply_same, View.read_write_univ]
      iapply (Entails.of_eq (copied_C7 (F := F) m d L _ _ hw)); iexact Ho7
    isplitl [Hx8 Ho8]
    · isplitl [Hx8]
      · iapply (Entails.of_eq (pts_xC8 (F := F) d L _)); iexact Hx8
      have hw : tile_body.sl.dma0_24 m d L fb8 = View.read (Elt F) (xC8 L).view (m (xLoc d)) := by
        unfold tile_body.sl.dma0_24 tile_body.sl.dma0_8
        simp only [ReadAs.apply_same, View.read_write_univ]
      iapply (Entails.of_eq (copied_C8 (F := F) m d L _ _ hw)); iexact Ho8
    isplitl [Hx9 Ho9]
    · isplitl [Hx9]
      · iapply (Entails.of_eq (pts_xC9 (F := F) d L _)); iexact Hx9
      have hw : tile_body.sl.dma0_25 m d L fb9 = View.read (Elt F) (xC9 L).view (m (xLoc d)) := by
        unfold tile_body.sl.dma0_25 tile_body.sl.dma0_9
        simp only [ReadAs.apply_same, View.read_write_univ]
      iapply (Entails.of_eq (copied_C9 (F := F) m d L _ _ hw)); iexact Ho9
    isplitl [Hx10 Ho10]
    · isplitl [Hx10]
      · iapply (Entails.of_eq (pts_xC10 (F := F) d L _)); iexact Hx10
      have hw : tile_body.sl.dma0_26 m d L fb10 = View.read (Elt F) (xC10 L).view (m (xLoc d)) := by
        unfold tile_body.sl.dma0_26 tile_body.sl.dma0_10
        simp only [ReadAs.apply_same, View.read_write_univ]
      iapply (Entails.of_eq (copied_C10 (F := F) m d L _ _ hw)); iexact Ho10
    isplitl [Hx11 Ho11]
    · isplitl [Hx11]
      · iapply (Entails.of_eq (pts_xC11 (F := F) d L _)); iexact Hx11
      have hw : tile_body.sl.dma0_27 m d L fb11 = View.read (Elt F) (xC11 L).view (m (xLoc d)) := by
        unfold tile_body.sl.dma0_27 tile_body.sl.dma0_11
        simp only [ReadAs.apply_same, View.read_write_univ]
      iapply (Entails.of_eq (copied_C11 (F := F) m d L _ _ hw)); iexact Ho11
    isplitl [Hx12 Ho12]
    · isplitl [Hx12]
      · iapply (Entails.of_eq (pts_xC12 (F := F) d L _)); iexact Hx12
      have hw : tile_body.sl.dma0_28 m d L fb12 = View.read (Elt F) (xC12 L).view (m (xLoc d)) := by
        unfold tile_body.sl.dma0_28 tile_body.sl.dma0_12
        simp only [ReadAs.apply_same, View.read_write_univ]
      iapply (Entails.of_eq (copied_C12 (F := F) m d L _ _ hw)); iexact Ho12
    isplitl [Hx13 Ho13]
    · isplitl [Hx13]
      · iapply (Entails.of_eq (pts_xC13 (F := F) d L _)); iexact Hx13
      have hw : tile_body.sl.dma0_29 m d L fb13 = View.read (Elt F) (xC13 L).view (m (xLoc d)) := by
        unfold tile_body.sl.dma0_29 tile_body.sl.dma0_13
        simp only [ReadAs.apply_same, View.read_write_univ]
      iapply (Entails.of_eq (copied_C13 (F := F) m d L _ _ hw)); iexact Ho13
    isplitl [Hx14 Ho14]
    · isplitl [Hx14]
      · iapply (Entails.of_eq (pts_xC14 (F := F) d L _)); iexact Hx14
      have hw : tile_body.sl.dma0_30 m d L fb0 = View.read (Elt F) (xC14 L).view (m (xLoc d)) := by
        unfold tile_body.sl.dma0_30 tile_body.sl.dma0_15
        simp only [ReadAs.apply_same, View.read_write_univ]
      iapply (Entails.of_eq (copied_C14 (F := F) m d L _ _ hw)); iexact Ho14
    isplitl [Hx15]
    · iapply (Entails.of_eq (pts_xC15 (F := F) d L _)); iexact Hx15
    have hw : tile_body.sl.dma0_31 m d L fb1 = View.read (Elt F) (xC15 L).view (m (xLoc d)) := by
      unfold tile_body.sl.dma0_31 tile_body.sl.dma0_17
      simp only [ReadAs.apply_same, View.read_write_univ]
    iapply (Entails.of_eq (copied_C15 (F := F) m d L _ _ hw)); iexact Ho15
  isplitl [Hb0 Hb1 Hb2 Hb3 Hb4 Hb5 Hb6 Hb7 Hb8 Hb9 Hb10 Hb11 Hb12 Hb13 Hbufs]
  · isplitl [Hb0 Hb1 Hb2 Hb3 Hb4 Hb5 Hb6 Hb7 Hb8 Hb9 Hb10 Hb11 Hb12 Hb13]
    · isplitl [Hb0]
      · iexists _; iapply (Entails.of_eq (pts_sB0 (F := F) d L _)); iexact Hb0
      isplitl [Hb1]
      · iexists _; iapply (Entails.of_eq (pts_sB1 (F := F) d L _)); iexact Hb1
      isplitl [Hb2]
      · iexists _; iapply (Entails.of_eq (pts_sB2 (F := F) d L _)); iexact Hb2
      isplitl [Hb3]
      · iexists _; iapply (Entails.of_eq (pts_sB3 (F := F) d L _)); iexact Hb3
      isplitl [Hb4]
      · iexists _; iapply (Entails.of_eq (pts_sB4 (F := F) d L _)); iexact Hb4
      isplitl [Hb5]
      · iexists _; iapply (Entails.of_eq (pts_sB5 (F := F) d L _)); iexact Hb5
      isplitl [Hb6]
      · iexists _; iapply (Entails.of_eq (pts_sB6 (F := F) d L _)); iexact Hb6
      isplitl [Hb7]
      · iexists _; iapply (Entails.of_eq (pts_sB7 (F := F) d L _)); iexact Hb7
      isplitl [Hb8]
      · iexists _; iapply (Entails.of_eq (pts_sB8 (F := F) d L _)); iexact Hb8
      isplitl [Hb9]
      · iexists _; iapply (Entails.of_eq (pts_sB9 (F := F) d L _)); iexact Hb9
      isplitl [Hb10]
      · iexists _; iapply (Entails.of_eq (pts_sB10 (F := F) d L _)); iexact Hb10
      isplitl [Hb11]
      · iexists _; iapply (Entails.of_eq (pts_sB11 (F := F) d L _)); iexact Hb11
      isplitl [Hb12]
      · iexists _; iapply (Entails.of_eq (pts_sB12 (F := F) d L _)); iexact Hb12
      iexists _; iapply (Entails.of_eq (pts_sB13 (F := F) d L _)); iexact Hb13
    · iexact Hbufs
  isplitl [Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hsems]
  · isplitl [Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41]
    · isplitl [Hs14]
      · iexact Hs14
      isplitl [Hs15]
      · iexact Hs15
      isplitl [Hs16]
      · iexact Hs16
      isplitl [Hs17]
      · iexact Hs17
      isplitl [Hs18]
      · iexact Hs18
      isplitl [Hs19]
      · iexact Hs19
      isplitl [Hs20]
      · iexact Hs20
      isplitl [Hs21]
      · iexact Hs21
      isplitl [Hs22]
      · iexact Hs22
      isplitl [Hs23]
      · iexact Hs23
      isplitl [Hs24]
      · iexact Hs24
      isplitl [Hs25]
      · iexact Hs25
      isplitl [Hs26]
      · iexact Hs26
      isplitl [Hs27]
      · iexact Hs27
      isplitl [Hs28]
      · iexact Hs28
      isplitl [Hs29]
      · iexact Hs29
      isplitl [Hs30]
      · iexact Hs30
      isplitl [Hs31]
      · iexact Hs31
      isplitl [Hs32]
      · iexact Hs32
      isplitl [Hs33]
      · iexact Hs33
      isplitl [Hs34]
      · iexact Hs34
      isplitl [Hs35]
      · iexact Hs35
      isplitl [Hs36]
      · iexact Hs36
      isplitl [Hs37]
      · iexact Hs37
      isplitl [Hs38]
      · iexact Hs38
      isplitl [Hs39]
      · iexact Hs39
      isplitl [Hs40]
      · iexact Hs40
      iexact Hs41
    · iexact Hsems
  iexists (insert (SemLoc.dma cc0_scratch29.sem, none) (insert (SemLoc.dma cc0_scratch28.sem, none) (insert (SemLoc.dma cc0_scratch41.sem, none) (insert (SemLoc.dma cc0_scratch40.sem, none) (insert (SemLoc.dma cc0_scratch39.sem, none) (insert (SemLoc.dma cc0_scratch38.sem, none) (insert (SemLoc.dma cc0_scratch37.sem, none) (insert (SemLoc.dma cc0_scratch36.sem, none) (insert (SemLoc.dma cc0_scratch35.sem, none) (insert (SemLoc.dma cc0_scratch34.sem, none) (insert (SemLoc.dma cc0_scratch33.sem, none) (insert (SemLoc.dma cc0_scratch32.sem, none) (insert (SemLoc.dma cc0_scratch31.sem, none) (insert (SemLoc.dma cc0_scratch30.sem, none) (insert (SemLoc.dma cc0_scratch15.sem, none) (insert (SemLoc.dma cc0_scratch14.sem, none) (insert (SemLoc.dma cc0_scratch27.sem, none) (insert (SemLoc.dma cc0_scratch26.sem, none) (insert (SemLoc.dma cc0_scratch25.sem, none) (insert (SemLoc.dma cc0_scratch24.sem, none) (insert (SemLoc.dma cc0_scratch23.sem, none) (insert (SemLoc.dma cc0_scratch22.sem, none) (insert (SemLoc.dma cc0_scratch21.sem, none) (insert (SemLoc.dma cc0_scratch20.sem, none) (insert (SemLoc.dma cc0_scratch19.sem, none) (insert (SemLoc.dma cc0_scratch18.sem, none) (insert (SemLoc.dma cc0_scratch17.sem, none) (insert (SemLoc.dma cc0_scratch16.sem, none) (insert (SemLoc.dma cc0_scratch29.sem, none) (insert (SemLoc.dma cc0_scratch15.sem, none) (insert (SemLoc.dma cc0_scratch28.sem, none) (insert (SemLoc.dma cc0_scratch14.sem, none) (W))))))))))))))))))))))))))))))))); isplitr
  · ipureintro
    exact ((((((((((((((((((((((((((((((((WaitsGrow.refl W).insert _).insert _).insert _).insert _).insert _).insert _).insert _).insert _).insert _).insert _).insert _).insert _).insert _).insert _).insert _).insert _).insert _).insert _).insert _).insert _).insert _).insert _).insert _).insert _).insert _).insert _).insert _).insert _).insert _).insert _).insert _).insert _
  · iexact HO

end Tile

end Cert.Proof.KB

end
-- ==== Proof.KBLaunch.lean ====
import proofs.«217873_g7627861918245_cont_sun_m_736_13_alg».proof.Proof.KBTile

/-!
The launch: from "each vector subcore's task copies its chunks" to the program's run.

The TensorCore's one call hands the two SparseCores the argument and the result, chunk by chunk; each sequencer hands
its sixteen subcores their chunks; every task hands its chunks back, the result's holding the argument's; joined
again, the result holds the argument's elements at every index, and the two arguments hold what they held.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.BigSepFin

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) xV (Memref.isWhole_whole _) oV (Memref.isWhole_whole _) sB0 (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _) sB9 (Memref.isWhole_whole _) sB10 (Memref.isWhole_whole _) sB11 (Memref.isWhole_whole _) sB12 (Memref.isWhole_whole _) sB13 (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's chunks are its tasks' chunks: nothing to split. -/
theorem vecSplit : (K (F := F)).VecSplit' (P m) 0 := by
  intro d c
  show (bigSep Finset.univ fun i : Fin 16 => bigSep Finset.univ fun r : Fin 16 => chunkIn m d (Fin.cast nCore_zero c) i r) ⊢ |={Set.univ}=> iprop(
      (bigSep Finset.univ fun i : Fin ((K (F := F)).nSub 0) => bigSep Finset.univ fun r : Fin 16 => chunkIn m d (Fin.cast nCore_zero c) (Fin.cast nSub_zero i) r)
      ∗ ((bigSep Finset.univ fun i : Fin ((K (F := F)).nSub 0) => bigSep Finset.univ fun r : Fin 16 => chunkOut m d (Fin.cast nCore_zero c) (Fin.cast nSub_zero i) r)
          -∗ (bigSep Finset.univ fun i : Fin 16 => bigSep Finset.univ fun r : Fin 16 => chunkOut m d (Fin.cast nCore_zero c) i r)))
  rw [bigSep_tasks (F := F) (fun i => bigSep Finset.univ fun r : Fin 16 => chunkIn m d (Fin.cast nCore_zero c) i r),
    bigSep_tasks (F := F) (fun i => bigSep Finset.univ fun r : Fin 16 => chunkOut m d (Fin.cast nCore_zero c) i r)]
  iintro H; imodintro
  isplitl [H]; · iexact H
  iintro H; iexact H

/-! ## The launch element: the handshakes' rounds beside the transfers' counters at their unit -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays whole, and as their chunks -/

abbrev xPts (d : Dev nD) : sProp 𝕄 := xLoc d ↦{fullShare} m (xLoc d)
abbrev aPts (d : Dev nD) : sProp 𝕄 := aLoc d ↦{fullShare} m (aLoc d)
abbrev oPts (d : Dev nD) (f : Buf (Elt F) (oLoc d)) : sProp 𝕄 := oLoc d ↦{fullShare} f

omit [FloatOps F] in
theorem xPts_chunks (d : Dev nD) (f : Buf (Elt F) (xLoc d)) :
    (xLoc d ↦{fullShare} f : sProp 𝕄) = bigSep Finset.univ fun k : CIx => xLoc d ↦[chunkSetOf k]{fullShare} f := by
  rw [← pointsTo_biUnion Finset.univ (ℓ := xLoc d) chunkSetOf chunks_disjoint, chunks_cover]; try rfl
omit [FloatOps F] in
theorem oPts_chunks (d : Dev nD) (f : Buf (Elt F) (oLoc d)) :
    (oLoc d ↦{fullShare} f : sProp 𝕄) = bigSep Finset.univ fun k : CIx => oLoc d ↦[chunkSetOf k]{fullShare} f := by
  rw [← pointsTo_biUnion Finset.univ (ℓ := oLoc d) chunkSetOf chunks_disjoint, chunks_cover]; try rfl

omit [FloatOps F] in
/-- A conjunction over all chunks, nested by SparseCore, subcore, chunk. -/
theorem bigSep_nested (Φ : CIx → sProp 𝕄) :
    (bigSep Finset.univ fun c : Fin 2 => bigSep Finset.univ fun i : Fin 16 => bigSep Finset.univ fun r : Fin 16 => Φ (c, i, r)) = bigSep Finset.univ Φ := by
  rw [bigSep_univ_prod Φ]
  exact bigSep_congr fun c _ => (bigSep_univ_prod fun ir : Fin 16 × Fin 16 => Φ (c, ir)).symm

theorem st0_eq (d : Dev nD) :
    (bigSep Finset.univ fun c : Fin ((K (F := F)).nCore 0) => (P m).st 0 d c) = iprop(xPts m d ∗ oPts d (m (oLoc d))) := by
  show (bigSep Finset.univ fun c : Fin ((K (F := F)).nCore 0) =>
      bigSep Finset.univ fun i : Fin 16 => bigSep Finset.univ fun r : Fin 16 => chunkIn m d (Fin.cast nCore_zero c) i r) = _
  rw [bigSep_cores (F := F) (fun c => bigSep Finset.univ fun i : Fin 16 => bigSep Finset.univ fun r : Fin 16 => chunkIn m d c i r),
    bigSep_nested (F := F) (fun k => chunkIn m d k.1 k.2.1 k.2.2), bigSep_sep', ← xPts_chunks, ← oPts_chunks]

theorem dn0_eq (d : Dev nD) :
    (bigSep Finset.univ fun c : Fin ((K (F := F)).nCore 0) => (P m).dn 0 d c) = iprop(xPts m d ∗ oPts d (copied m d)) := by
  show (bigSep Finset.univ fun c : Fin ((K (F := F)).nCore 0) =>
      bigSep Finset.univ fun i : Fin 16 => bigSep Finset.univ fun r : Fin 16 => chunkOut m d (Fin.cast nCore_zero c) i r) = _
  rw [bigSep_cores (F := F) (fun c => bigSep Finset.univ fun i : Fin 16 => bigSep Finset.univ fun r : Fin 16 => chunkOut m d c i r),
    bigSep_nested (F := F) (fun k => chunkOut m d k.1 k.2.1 k.2.2), bigSep_sep', ← xPts_chunks, ← oPts_chunks]

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves: the two arguments as they were, the result holding the first argument's elements. -/
abbrev FIN (d : Dev nD) : sProp 𝕄 := iprop(xPts m d ∗ aPts m d ∗ oPts d (copied m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ha, Ho⟩, -, -⟩, -⟩
  iapply ((K (F := F)).wp_run (D (F := F)) 𝒱 (EH := EH) (P := P m) κ d 0) $$ [Hst Hx Ho Ha]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  isplitl [Ha]; · iexact Ha
  iexact Ho

def fq (d : Dev nD) (s' : Phys nD τ sig (Elt F)) : Prop :=
  s'.mem.mem (oLoc d) = copied m d ∧ s'.mem.mem (xLoc d) = m (xLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := copied m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- After the run, on every device: the result holds the first argument's launch contents, and both arguments hold
    theirs. -/
def QC : PUnit × MemSt nD τ sig (Elt F) → Prop := fun r => ∀ c : Dev nD,
  r.2.mem (oLoc c) = copied m c ∧ r.2.mem (xLoc c) = m (xLoc c) ∧ r.2.mem (aLoc c) = m (aLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KISetup.lean ====
import proofs.«217873_g7627861918245_cont_sun_m_736_13_alg».proof.Defs
import Idealize.ShloMosaic.Lib.SparseCore.Launch
import Idealize.ShloMosaic.Lib.StableHlo.Run
import Idealize.ShloMosaic.Lib.Pipeline.Kit
import Idealize.ShloMosaic.Lib.Tactic
import proofs.«217873_g7627861918245_cont_sun_m_736_13_alg».proof.Proof.Gen.KernelIdeal
import proofs.«217873_g7627861918245_cont_sun_m_736_13_alg».proof.Proof.Gen.KernelIdeal.Skeleton

/-!
The row copy as the launch theorem sees it, and its geometry.

The kernel copies the 16384 rows of its first argument into its result. The rows are dealt to the 2 × 16 vector
subcores: subcore `i` of SparseCore `c` owns rows `[1024 i + 512 c, 1024 i + 512 c + 512)`, which it moves in
sixteen chunks of 32 rows, chunk `r` being rows `[1024 i + 512 c + 32 r, … + 32)`. The 512 chunks are pairwise
disjoint and cover the array; each handshake of the launch carries, per chunk, the chunk's elements of the argument
(read, and handed back unchanged) and of the result (handed back holding the argument's elements).
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev xLoc (d : Dev nD) : Loc nD τ sig := (SparseCore.T d).loc main_arg0
abbrev aLoc (d : Dev nD) : Loc nD τ sig := (SparseCore.T d).loc main_arg1
abbrev oLoc (d : Dev nD) : Loc nD τ sig := (SparseCore.T d).loc main_v0

/-- The first argument's launch contents, as contents of the result array (the two arrays have one type). -/
def copied (d : Dev nD) : Buf (Elt F) (oLoc d) := fun j => m (xLoc d) j

/-! ## The chunks -/

theorem chunk_inb (c : Fin 2) (i r : Fin 16) :
    ∀ a, (![1024 * i.val + 512 * c.val + 32 * r.val, 0] : Fin 2 → ℕ) a + S32x256.size a ≤ S16384x256.size a := by
  intro a
  have hc := c.isLt; have hi := i.isLt; have hr := r.isLt
  match a with
  | 0 => show 1024 * i.val + 512 * c.val + 32 * r.val + 32 ≤ 16384; omega
  | 1 => show 0 + 256 ≤ 256; omega

/-- Chunk `r` of vector subcore `i` of SparseCore `c`: 32 whole rows. -/
abbrev chunkRect (c : Fin 2) (i r : Fin 16) : Rect S16384x256 :=
  Rect.unit (s := S16384x256) ![1024 * i.val + 512 * c.val + 32 * r.val, 0] S32x256.size (chunk_inb c i r)

abbrev chunkSet (c : Fin 2) (i r : Fin 16) : Finset S16384x256.Idx := (chunkRect c i r).set

theorem mem_chunkSet {c : Fin 2} {i r : Fin 16} {j : S16384x256.Idx} :
    j ∈ chunkSet c i r ↔ 1024 * i.val + 512 * c.val + 32 * r.val ≤ (j 0).val ∧ (j 0).val < 1024 * i.val + 512 * c.val + 32 * r.val + 32 := by
  unfold chunkSet chunkRect
  rw [Rect.mem_set_unit]
  constructor
  · intro h; exact h 0
  · intro h a
    match a with
    | 0 => exact h
    | 1 => exact ⟨Nat.zero_le _, by have h1 : (j 1).val < 256 := (j 1).isLt; show (j 1).val < 0 + 256; omega⟩

/-- The index of the chunks: SparseCore, vector subcore, chunk. -/
abbrev CIx : Type := Fin 2 × Fin 16 × Fin 16

abbrev chunkSetOf (k : CIx) : Finset S16384x256.Idx := chunkSet k.1 k.2.1 k.2.2

theorem chunks_disjoint : ∀ k ∈ (Finset.univ : Finset CIx), ∀ k' ∈ (Finset.univ : Finset CIx), k ≠ k' → Disjoint (chunkSetOf k) (chunkSetOf k') := by
  rintro ⟨c, i, r⟩ - ⟨c', i', r'⟩ - hne
  refine Finset.disjoint_left.mpr fun j h h' => hne ?_
  have h1 := (mem_chunkSet (c := c) (i := i) (r := r)).mp h; have h2 := (mem_chunkSet (c := c') (i := i') (r := r')).mp h'
  have hc := c.isLt; have hi := i.isLt; have hr := r.isLt
  have hc' := c'.isLt; have hi' := i'.isLt; have hr' := r'.isLt
  have e1 : i.val = i'.val := by omega
  have e2 : c.val = c'.val := by omega
  have e3 : r.val = r'.val := by omega
  exact Prod.ext (Fin.ext e2) (Prod.ext (Fin.ext e1) (Fin.ext e3))

theorem chunks_cover : (Finset.univ : Finset CIx).biUnion chunkSetOf = Finset.univ := by
  refine Finset.eq_univ_iff_forall.mpr fun j => Finset.mem_biUnion.mpr ?_
  have hj : (j 0).val < 16384 := (j 0).isLt
  refine ⟨(⟨(j 0).val / 512 % 2, Nat.mod_lt _ (by decide)⟩, ⟨(j 0).val / 1024, by omega⟩, ⟨(j 0).val / 32 % 16, Nat.mod_lt _ (by decide)⟩),
    Finset.mem_univ _, mem_chunkSet.mpr ?_⟩
  show 1024 * ((j 0).val / 1024) + 512 * ((j 0).val / 512 % 2) + 32 * ((j 0).val / 32 % 16) ≤ (j 0).val
    ∧ (j 0).val < 1024 * ((j 0).val / 1024) + 512 * ((j 0).val / 512 % 2) + 32 * ((j 0).val / 32 % 16) + 32
  omega

/-! ## What the handshakes carry -/

variable [FloatOps F]

/-- A chunk's elements of the argument and of the result, as the call finds them. -/
abbrev chunkIn (d : Dev nD) (c : Fin 2) (i r : Fin 16) : sProp 𝕄 :=
  iprop((xLoc d ↦[chunkSet c i r]{fullShare} m (xLoc d)) ∗ (oLoc d ↦[chunkSet c i r]{fullShare} m (oLoc d)))
/-- and as the task leaves them: the result's holding the argument's. -/
abbrev chunkOut (d : Dev nD) (c : Fin 2) (i r : Fin 16) : sProp 𝕄 :=
  iprop((xLoc d ↦[chunkSet c i r]{fullShare} m (xLoc d)) ∗ (oLoc d ↦[chunkSet c i r]{fullShare} copied m d))

/-- The one call hands each SparseCore the chunks of its sixteen tasks, each task its sixteen chunks, and takes them
    back with the result's chunks holding the argument's elements. Nothing of the launch's is consumed by a task. -/
def P : (K (F := F)).Pay (nD := nD) (Val := Elt F) (Name := ℕ) (U := UU) where
  st := fun q d c => match q with
    | 0 => bigSep Finset.univ fun i : Fin 16 => bigSep Finset.univ fun r : Fin 16 => chunkIn m d (Fin.cast nCore_zero c) i r
  dn := fun q d c => match q with
    | 0 => bigSep Finset.univ fun i : Fin 16 => bigSep Finset.univ fun r : Fin 16 => chunkOut m d (Fin.cast nCore_zero c) i r
  go := fun q d c i => match q with
    | 0 => bigSep Finset.univ fun r : Fin 16 => chunkIn m d (Fin.cast nCore_zero c) (Fin.cast nSub_zero i) r
  td := fun q d c i => match q with
    | 0 => bigSep Finset.univ fun r : Fin 16 => chunkOut m d (Fin.cast nCore_zero c) (Fin.cast nSub_zero i) r
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.KIGeom.lean ====
import proofs.«217873_g7627861918245_cont_sun_m_736_13_alg».proof.Proof.KISetup
import proofs.«217873_g7627861918245_cont_sun_m_736_13_alg».proof.Proof.LibBigSepFin

/-!
A vector subcore's view of its chunks and of its own storage.

The body slices chunk `r` of its 512 rows out of the argument and out of the result at the offsets its integer
chain computes from the subcore's coordinates; the chain's closed form is
`(1024 i + 512 c + 32 r, 0)`, so the slice's elements are the chunk's. The subcore's own scoped storage is its
fourteen 32-row buffers and its twenty-eight DMA semaphores, and whatever else the region scoped for it.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.BigSepFin

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

abbrev xV : Memref sig .scVector .hbm S16384x256 .f32 := Memref.whole main_arg0_scv
abbrev oV : Memref sig .scVector .hbm S16384x256 .f32 := Memref.whole main_v0_scv
abbrev sB0 : Memref sig .scVector .vmem S32x256 .f32 := Memref.whole cc0_scratch0
abbrev sB1 : Memref sig .scVector .vmem S32x256 .f32 := Memref.whole cc0_scratch1
abbrev sB2 : Memref sig .scVector .vmem S32x256 .f32 := Memref.whole cc0_scratch2
abbrev sB3 : Memref sig .scVector .vmem S32x256 .f32 := Memref.whole cc0_scratch3
abbrev sB4 : Memref sig .scVector .vmem S32x256 .f32 := Memref.whole cc0_scratch4
abbrev sB5 : Memref sig .scVector .vmem S32x256 .f32 := Memref.whole cc0_scratch5
abbrev sB6 : Memref sig .scVector .vmem S32x256 .f32 := Memref.whole cc0_scratch6
abbrev sB7 : Memref sig .scVector .vmem S32x256 .f32 := Memref.whole cc0_scratch7
abbrev sB8 : Memref sig .scVector .vmem S32x256 .f32 := Memref.whole cc0_scratch8
abbrev sB9 : Memref sig .scVector .vmem S32x256 .f32 := Memref.whole cc0_scratch9
abbrev sB10 : Memref sig .scVector .vmem S32x256 .f32 := Memref.whole cc0_scratch10
abbrev sB11 : Memref sig .scVector .vmem S32x256 .f32 := Memref.whole cc0_scratch11
abbrev sB12 : Memref sig .scVector .vmem S32x256 .f32 := Memref.whole cc0_scratch12
abbrev sB13 : Memref sig .scVector .vmem S32x256 .f32 := Memref.whole cc0_scratch13

/-- Chunk `r`'s rectangle as the body computes it. -/
abbrev chunkR (L : grid0.Coords) (r : Fin 16) : Rect S16384x256 :=
  Rect.unit (s := S16384x256) (k0_off1 L (BitVec.ofNat 32 (32 * r.val))) S32x256.size (k0_off1_inb L r)

theorem chunkR_eq (r : Fin 16) : chunkR L r = chunkRect (cL L) (iL L) r := by
  unfold chunkR chunkRect
  congr 1
  exact k0_off1_eq L r

abbrev xCh (L : grid0.Coords) (r : Fin 16) : Memref sig .scVector .hbm S32x256 .f32 := (xV).slice (chunkR L r) (fun _ => rfl)
abbrev oCh (L : grid0.Coords) (r : Fin 16) : Memref sig .scVector .hbm S32x256 .f32 := (oV).slice (chunkR L r) (fun _ => rfl)

theorem set_xCh (r : Fin 16) : (xCh L r).view.set = chunkSet (cL L) (iL L) r := by
  show ((View.whole (main_arg0_scv : Ref sig .scVector)).slice (chunkR L r)).set = (chunkRect (cL L) (iL L) r).set
  rw [View.set_slice, chunkR_eq]; exact Finset.map_refl
theorem set_oCh (r : Fin 16) : (oCh L r).view.set = chunkSet (cL L) (iL L) r := by
  show ((View.whole (main_v0_scv : Ref sig .scVector)).slice (chunkR L r)).set = (chunkRect (cL L) (iL L) r).set
  rw [View.set_slice, chunkR_eq]; exact Finset.map_refl

theorem pts_xCh (r : Fin 16) (f : Buf (Elt F) (xLoc d)) :
    ((xCh L r).view.loc (V d (cV L) (jV L)) ↦[(xCh L r).view.set]{fullShare} f : sProp 𝕄) = xLoc d ↦[chunkSet (cL L) (iL L) r]{fullShare} f := by
  rw [set_xCh]
theorem pts_oCh (r : Fin 16) (f : Buf (Elt F) (oLoc d)) :
    ((oCh L r).view.loc (V d (cV L) (jV L)) ↦[(oCh L r).view.set]{fullShare} f : sProp 𝕄) = oLoc d ↦[chunkSet (cL L) (iL L) r]{fullShare} f := by
  rw [set_oCh]

/-! The chunks' slices at the body's own offset constants. -/
abbrev xC0 (L : grid0.Coords) : Memref sig .scVector .hbm S32x256 .f32 := (xV).slice (Rect.unit (s := S16384x256) (k0_off1 L 0#32) S32x256.size (k0_off1_inb L 0)) (fun _ => rfl)
abbrev oC0 (L : grid0.Coords) : Memref sig .scVector .hbm S32x256 .f32 := (oV).slice (Rect.unit (s := S16384x256) (k0_off1 L 0#32) S32x256.size (k0_off1_inb L 0)) (fun _ => rfl)
abbrev xC1 (L : grid0.Coords) : Memref sig .scVector .hbm S32x256 .f32 := (xV).slice (Rect.unit (s := S16384x256) (k0_off1 L 32#32) S32x256.size (k0_off1_inb L 1)) (fun _ => rfl)
abbrev oC1 (L : grid0.Coords) : Memref sig .scVector .hbm S32x256 .f32 := (oV).slice (Rect.unit (s := S16384x256) (k0_off1 L 32#32) S32x256.size (k0_off1_inb L 1)) (fun _ => rfl)
abbrev xC2 (L : grid0.Coords) : Memref sig .scVector .hbm S32x256 .f32 := (xV).slice (Rect.unit (s := S16384x256) (k0_off1 L 64#32) S32x256.size (k0_off1_inb L 2)) (fun _ => rfl)
abbrev oC2 (L : grid0.Coords) : Memref sig .scVector .hbm S32x256 .f32 := (oV).slice (Rect.unit (s := S16384x256) (k0_off1 L 64#32) S32x256.size (k0_off1_inb L 2)) (fun _ => rfl)
abbrev xC3 (L : grid0.Coords) : Memref sig .scVector .hbm S32x256 .f32 := (xV).slice (Rect.unit (s := S16384x256) (k0_off1 L 96#32) S32x256.size (k0_off1_inb L 3)) (fun _ => rfl)
abbrev oC3 (L : grid0.Coords) : Memref sig .scVector .hbm S32x256 .f32 := (oV).slice (Rect.unit (s := S16384x256) (k0_off1 L 96#32) S32x256.size (k0_off1_inb L 3)) (fun _ => rfl)
abbrev xC4 (L : grid0.Coords) : Memref sig .scVector .hbm S32x256 .f32 := (xV).slice (Rect.unit (s := S16384x256) (k0_off1 L 128#32) S32x256.size (k0_off1_inb L 4)) (fun _ => rfl)
abbrev oC4 (L : grid0.Coords) : Memref sig .scVector .hbm S32x256 .f32 := (oV).slice (Rect.unit (s := S16384x256) (k0_off1 L 128#32) S32x256.size (k0_off1_inb L 4)) (fun _ => rfl)
abbrev xC5 (L : grid0.Coords) : Memref sig .scVector .hbm S32x256 .f32 := (xV).slice (Rect.unit (s := S16384x256) (k0_off1 L 160#32) S32x256.size (k0_off1_inb L 5)) (fun _ => rfl)
abbrev oC5 (L : grid0.Coords) : Memref sig .scVector .hbm S32x256 .f32 := (oV).slice (Rect.unit (s := S16384x256) (k0_off1 L 160#32) S32x256.size (k0_off1_inb L 5)) (fun _ => rfl)
abbrev xC6 (L : grid0.Coords) : Memref sig .scVector .hbm S32x256 .f32 := (xV).slice (Rect.unit (s := S16384x256) (k0_off1 L 192#32) S32x256.size (k0_off1_inb L 6)) (fun _ => rfl)
abbrev oC6 (L : grid0.Coords) : Memref sig .scVector .hbm S32x256 .f32 := (oV).slice (Rect.unit (s := S16384x256) (k0_off1 L 192#32) S32x256.size (k0_off1_inb L 6)) (fun _ => rfl)
abbrev xC7 (L : grid0.Coords) : Memref sig .scVector .hbm S32x256 .f32 := (xV).slice (Rect.unit (s := S16384x256) (k0_off1 L 224#32) S32x256.size (k0_off1_inb L 7)) (fun _ => rfl)
abbrev oC7 (L : grid0.Coords) : Memref sig .scVector .hbm S32x256 .f32 := (oV).slice (Rect.unit (s := S16384x256) (k0_off1 L 224#32) S32x256.size (k0_off1_inb L 7)) (fun _ => rfl)
abbrev xC8 (L : grid0.Coords) : Memref sig .scVector .hbm S32x256 .f32 := (xV).slice (Rect.unit (s := S16384x256) (k0_off1 L 256#32) S32x256.size (k0_off1_inb L 8)) (fun _ => rfl)
abbrev oC8 (L : grid0.Coords) : Memref sig .scVector .hbm S32x256 .f32 := (oV).slice (Rect.unit (s := S16384x256) (k0_off1 L 256#32) S32x256.size (k0_off1_inb L 8)) (fun _ => rfl)
abbrev xC9 (L : grid0.Coords) : Memref sig .scVector .hbm S32x256 .f32 := (xV).slice (Rect.unit (s := S16384x256) (k0_off1 L 288#32) S32x256.size (k0_off1_inb L 9)) (fun _ => rfl)
abbrev oC9 (L : grid0.Coords) : Memref sig .scVector .hbm S32x256 .f32 := (oV).slice (Rect.unit (s := S16384x256) (k0_off1 L 288#32) S32x256.size (k0_off1_inb L 9)) (fun _ => rfl)
abbrev xC10 (L : grid0.Coords) : Memref sig .scVector .hbm S32x256 .f32 := (xV).slice (Rect.unit (s := S16384x256) (k0_off1 L 320#32) S32x256.size (k0_off1_inb L 10)) (fun _ => rfl)
abbrev oC10 (L : grid0.Coords) : Memref sig .scVector .hbm S32x256 .f32 := (oV).slice (Rect.unit (s := S16384x256) (k0_off1 L 320#32) S32x256.size (k0_off1_inb L 10)) (fun _ => rfl)
abbrev xC11 (L : grid0.Coords) : Memref sig .scVector .hbm S32x256 .f32 := (xV).slice (Rect.unit (s := S16384x256) (k0_off1 L 352#32) S32x256.size (k0_off1_inb L 11)) (fun _ => rfl)
abbrev oC11 (L : grid0.Coords) : Memref sig .scVector .hbm S32x256 .f32 := (oV).slice (Rect.unit (s := S16384x256) (k0_off1 L 352#32) S32x256.size (k0_off1_inb L 11)) (fun _ => rfl)
abbrev xC12 (L : grid0.Coords) : Memref sig .scVector .hbm S32x256 .f32 := (xV).slice (Rect.unit (s := S16384x256) (k0_off1 L 384#32) S32x256.size (k0_off1_inb L 12)) (fun _ => rfl)
abbrev oC12 (L : grid0.Coords) : Memref sig .scVector .hbm S32x256 .f32 := (oV).slice (Rect.unit (s := S16384x256) (k0_off1 L 384#32) S32x256.size (k0_off1_inb L 12)) (fun _ => rfl)
abbrev xC13 (L : grid0.Coords) : Memref sig .scVector .hbm S32x256 .f32 := (xV).slice (Rect.unit (s := S16384x256) (k0_off1 L 416#32) S32x256.size (k0_off1_inb L 13)) (fun _ => rfl)
abbrev oC13 (L : grid0.Coords) : Memref sig .scVector .hbm S32x256 .f32 := (oV).slice (Rect.unit (s := S16384x256) (k0_off1 L 416#32) S32x256.size (k0_off1_inb L 13)) (fun _ => rfl)
abbrev xC14 (L : grid0.Coords) : Memref sig .scVector .hbm S32x256 .f32 := (xV).slice (Rect.unit (s := S16384x256) (k0_off1 L 448#32) S32x256.size (k0_off1_inb L 14)) (fun _ => rfl)
abbrev oC14 (L : grid0.Coords) : Memref sig .scVector .hbm S32x256 .f32 := (oV).slice (Rect.unit (s := S16384x256) (k0_off1 L 448#32) S32x256.size (k0_off1_inb L 14)) (fun _ => rfl)
abbrev xC15 (L : grid0.Coords) : Memref sig .scVector .hbm S32x256 .f32 := (xV).slice (Rect.unit (s := S16384x256) (k0_off1 L 480#32) S32x256.size (k0_off1_inb L 15)) (fun _ => rfl)
abbrev oC15 (L : grid0.Coords) : Memref sig .scVector .hbm S32x256 .f32 := (oV).slice (Rect.unit (s := S16384x256) (k0_off1 L 480#32) S32x256.size (k0_off1_inb L 15)) (fun _ => rfl)

theorem pts_xC0 (f : Buf (Elt F) (xLoc d)) :
    ((xC0 L).view.loc (V d (cV L) (jV L)) ↦[(xC0 L).view.set]{fullShare} f : sProp 𝕄) = xLoc d ↦[chunkSet (cL L) (iL L) 0]{fullShare} f := pts_xCh d L 0 f
theorem pts_oC0 (f : Buf (Elt F) (oLoc d)) :
    ((oC0 L).view.loc (V d (cV L) (jV L)) ↦[(oC0 L).view.set]{fullShare} f : sProp 𝕄) = oLoc d ↦[chunkSet (cL L) (iL L) 0]{fullShare} f := pts_oCh d L 0 f
theorem pts_xC1 (f : Buf (Elt F) (xLoc d)) :
    ((xC1 L).view.loc (V d (cV L) (jV L)) ↦[(xC1 L).view.set]{fullShare} f : sProp 𝕄) = xLoc d ↦[chunkSet (cL L) (iL L) 1]{fullShare} f := pts_xCh d L 1 f
theorem pts_oC1 (f : Buf (Elt F) (oLoc d)) :
    ((oC1 L).view.loc (V d (cV L) (jV L)) ↦[(oC1 L).view.set]{fullShare} f : sProp 𝕄) = oLoc d ↦[chunkSet (cL L) (iL L) 1]{fullShare} f := pts_oCh d L 1 f
theorem pts_xC2 (f : Buf (Elt F) (xLoc d)) :
    ((xC2 L).view.loc (V d (cV L) (jV L)) ↦[(xC2 L).view.set]{fullShare} f : sProp 𝕄) = xLoc d ↦[chunkSet (cL L) (iL L) 2]{fullShare} f := pts_xCh d L 2 f
theorem pts_oC2 (f : Buf (Elt F) (oLoc d)) :
    ((oC2 L).view.loc (V d (cV L) (jV L)) ↦[(oC2 L).view.set]{fullShare} f : sProp 𝕄) = oLoc d ↦[chunkSet (cL L) (iL L) 2]{fullShare} f := pts_oCh d L 2 f
theorem pts_xC3 (f : Buf (Elt F) (xLoc d)) :
    ((xC3 L).view.loc (V d (cV L) (jV L)) ↦[(xC3 L).view.set]{fullShare} f : sProp 𝕄) = xLoc d ↦[chunkSet (cL L) (iL L) 3]{fullShare} f := pts_xCh d L 3 f
theorem pts_oC3 (f : Buf (Elt F) (oLoc d)) :
    ((oC3 L).view.loc (V d (cV L) (jV L)) ↦[(oC3 L).view.set]{fullShare} f : sProp 𝕄) = oLoc d ↦[chunkSet (cL L) (iL L) 3]{fullShare} f := pts_oCh d L 3 f
theorem pts_xC4 (f : Buf (Elt F) (xLoc d)) :
    ((xC4 L).view.loc (V d (cV L) (jV L)) ↦[(xC4 L).view.set]{fullShare} f : sProp 𝕄) = xLoc d ↦[chunkSet (cL L) (iL L) 4]{fullShare} f := pts_xCh d L 4 f
theorem pts_oC4 (f : Buf (Elt F) (oLoc d)) :
    ((oC4 L).view.loc (V d (cV L) (jV L)) ↦[(oC4 L).view.set]{fullShare} f : sProp 𝕄) = oLoc d ↦[chunkSet (cL L) (iL L) 4]{fullShare} f := pts_oCh d L 4 f
theorem pts_xC5 (f : Buf (Elt F) (xLoc d)) :
    ((xC5 L).view.loc (V d (cV L) (jV L)) ↦[(xC5 L).view.set]{fullShare} f : sProp 𝕄) = xLoc d ↦[chunkSet (cL L) (iL L) 5]{fullShare} f := pts_xCh d L 5 f
theorem pts_oC5 (f : Buf (Elt F) (oLoc d)) :
    ((oC5 L).view.loc (V d (cV L) (jV L)) ↦[(oC5 L).view.set]{fullShare} f : sProp 𝕄) = oLoc d ↦[chunkSet (cL L) (iL L) 5]{fullShare} f := pts_oCh d L 5 f
theorem pts_xC6 (f : Buf (Elt F) (xLoc d)) :
    ((xC6 L).view.loc (V d (cV L) (jV L)) ↦[(xC6 L).view.set]{fullShare} f : sProp 𝕄) = xLoc d ↦[chunkSet (cL L) (iL L) 6]{fullShare} f := pts_xCh d L 6 f
theorem pts_oC6 (f : Buf (Elt F) (oLoc d)) :
    ((oC6 L).view.loc (V d (cV L) (jV L)) ↦[(oC6 L).view.set]{fullShare} f : sProp 𝕄) = oLoc d ↦[chunkSet (cL L) (iL L) 6]{fullShare} f := pts_oCh d L 6 f
theorem pts_xC7 (f : Buf (Elt F) (xLoc d)) :
    ((xC7 L).view.loc (V d (cV L) (jV L)) ↦[(xC7 L).view.set]{fullShare} f : sProp 𝕄) = xLoc d ↦[chunkSet (cL L) (iL L) 7]{fullShare} f := pts_xCh d L 7 f
theorem pts_oC7 (f : Buf (Elt F) (oLoc d)) :
    ((oC7 L).view.loc (V d (cV L) (jV L)) ↦[(oC7 L).view.set]{fullShare} f : sProp 𝕄) = oLoc d ↦[chunkSet (cL L) (iL L) 7]{fullShare} f := pts_oCh d L 7 f
theorem pts_xC8 (f : Buf (Elt F) (xLoc d)) :
    ((xC8 L).view.loc (V d (cV L) (jV L)) ↦[(xC8 L).view.set]{fullShare} f : sProp 𝕄) = xLoc d ↦[chunkSet (cL L) (iL L) 8]{fullShare} f := pts_xCh d L 8 f
theorem pts_oC8 (f : Buf (Elt F) (oLoc d)) :
    ((oC8 L).view.loc (V d (cV L) (jV L)) ↦[(oC8 L).view.set]{fullShare} f : sProp 𝕄) = oLoc d ↦[chunkSet (cL L) (iL L) 8]{fullShare} f := pts_oCh d L 8 f
theorem pts_xC9 (f : Buf (Elt F) (xLoc d)) :
    ((xC9 L).view.loc (V d (cV L) (jV L)) ↦[(xC9 L).view.set]{fullShare} f : sProp 𝕄) = xLoc d ↦[chunkSet (cL L) (iL L) 9]{fullShare} f := pts_xCh d L 9 f
theorem pts_oC9 (f : Buf (Elt F) (oLoc d)) :
    ((oC9 L).view.loc (V d (cV L) (jV L)) ↦[(oC9 L).view.set]{fullShare} f : sProp 𝕄) = oLoc d ↦[chunkSet (cL L) (iL L) 9]{fullShare} f := pts_oCh d L 9 f
theorem pts_xC10 (f : Buf (Elt F) (xLoc d)) :
    ((xC10 L).view.loc (V d (cV L) (jV L)) ↦[(xC10 L).view.set]{fullShare} f : sProp 𝕄) = xLoc d ↦[chunkSet (cL L) (iL L) 10]{fullShare} f := pts_xCh d L 10 f
theorem pts_oC10 (f : Buf (Elt F) (oLoc d)) :
    ((oC10 L).view.loc (V d (cV L) (jV L)) ↦[(oC10 L).view.set]{fullShare} f : sProp 𝕄) = oLoc d ↦[chunkSet (cL L) (iL L) 10]{fullShare} f := pts_oCh d L 10 f
theorem pts_xC11 (f : Buf (Elt F) (xLoc d)) :
    ((xC11 L).view.loc (V d (cV L) (jV L)) ↦[(xC11 L).view.set]{fullShare} f : sProp 𝕄) = xLoc d ↦[chunkSet (cL L) (iL L) 11]{fullShare} f := pts_xCh d L 11 f
theorem pts_oC11 (f : Buf (Elt F) (oLoc d)) :
    ((oC11 L).view.loc (V d (cV L) (jV L)) ↦[(oC11 L).view.set]{fullShare} f : sProp 𝕄) = oLoc d ↦[chunkSet (cL L) (iL L) 11]{fullShare} f := pts_oCh d L 11 f
theorem pts_xC12 (f : Buf (Elt F) (xLoc d)) :
    ((xC12 L).view.loc (V d (cV L) (jV L)) ↦[(xC12 L).view.set]{fullShare} f : sProp 𝕄) = xLoc d ↦[chunkSet (cL L) (iL L) 12]{fullShare} f := pts_xCh d L 12 f
theorem pts_oC12 (f : Buf (Elt F) (oLoc d)) :
    ((oC12 L).view.loc (V d (cV L) (jV L)) ↦[(oC12 L).view.set]{fullShare} f : sProp 𝕄) = oLoc d ↦[chunkSet (cL L) (iL L) 12]{fullShare} f := pts_oCh d L 12 f
theorem pts_xC13 (f : Buf (Elt F) (xLoc d)) :
    ((xC13 L).view.loc (V d (cV L) (jV L)) ↦[(xC13 L).view.set]{fullShare} f : sProp 𝕄) = xLoc d ↦[chunkSet (cL L) (iL L) 13]{fullShare} f := pts_xCh d L 13 f
theorem pts_oC13 (f : Buf (Elt F) (oLoc d)) :
    ((oC13 L).view.loc (V d (cV L) (jV L)) ↦[(oC13 L).view.set]{fullShare} f : sProp 𝕄) = oLoc d ↦[chunkSet (cL L) (iL L) 13]{fullShare} f := pts_oCh d L 13 f
theorem pts_xC14 (f : Buf (Elt F) (xLoc d)) :
    ((xC14 L).view.loc (V d (cV L) (jV L)) ↦[(xC14 L).view.set]{fullShare} f : sProp 𝕄) = xLoc d ↦[chunkSet (cL L) (iL L) 14]{fullShare} f := pts_xCh d L 14 f
theorem pts_oC14 (f : Buf (Elt F) (oLoc d)) :
    ((oC14 L).view.loc (V d (cV L) (jV L)) ↦[(oC14 L).view.set]{fullShare} f : sProp 𝕄) = oLoc d ↦[chunkSet (cL L) (iL L) 14]{fullShare} f := pts_oCh d L 14 f
theorem pts_xC15 (f : Buf (Elt F) (xLoc d)) :
    ((xC15 L).view.loc (V d (cV L) (jV L)) ↦[(xC15 L).view.set]{fullShare} f : sProp 𝕄) = xLoc d ↦[chunkSet (cL L) (iL L) 15]{fullShare} f := pts_xCh d L 15 f
theorem pts_oC15 (f : Buf (Elt F) (oLoc d)) :
    ((oC15 L).view.loc (V d (cV L) (jV L)) ↦[(oC15 L).view.set]{fullShare} f : sProp 𝕄) = oLoc d ↦[chunkSet (cL L) (iL L) 15]{fullShare} f := pts_oCh d L 15 f

/-! ## What a copied chunk holds -/

/-- Two contents of a buffer that read the same through a view at an index agree on the element under it. -/
theorem eq_at_emb_of_read_eq {κ : Kind} {sp : Space} {s : Shape} {e : EltTy} (v : View sig κ sp s e)
    (f g : v.ty.Contents (Elt F)) (y : s.Idx) (h : v.read (Elt F) f y = v.read (Elt F) g y) : f (v.emb y) = g (v.emb y) := by
  rw [View.read_apply, View.read_apply] at h
  exact (cast_inj _).mp h

/-- The result's chunk `r`, overwritten whole with what was read off the argument's chunk `r`, holds the argument's
    elements: the two slices have one rectangle, so element `y` of the one lies under the index of element `y` of the
    other. -/
theorem chunk_copied (r : Fin 16) (g : Buf (Elt F) (oLoc d)) (w : S32x256.Idx → Elt F .f32)
    (hw : w = View.read (Elt F) (xCh L r).view (m (xLoc d))) :
    ((oCh L r).view.loc (V d (cV L) (jV L)) ↦[(oCh L r).view.set]{fullShare} (oCh L r).view.writes (Elt F) g [⟨Rect.whole S32x256, w⟩] : sProp 𝕄)
      = oLoc d ↦[chunkSet (cL L) (iL L) r]{fullShare} copied m d := by
  rw [← pts_oCh d L r (copied m d)]
  refine pointsTo_congr fun j hj => ?_
  obtain ⟨y, -, rfl⟩ := Finset.mem_map.mp hj
  refine eq_at_emb_of_read_eq (oCh L r).view _ _ y ?_
  have h1 := View.read_writes_cons_emb (oCh L r).view g (Rect.whole S32x256) w [] y
  rw [Rect.emb_whole_apply] at h1
  rw [h1, hw]
  rfl

theorem copied_C0 (g : Buf (Elt F) (oLoc d)) (w : S32x256.Idx → Elt F .f32) (hw : w = View.read (Elt F) (xC0 L).view (m (xLoc d))) :
    ((oC0 L).view.loc (V d (cV L) (jV L)) ↦[(oC0 L).view.set]{fullShare} (oC0 L).view.writes (Elt F) g [⟨Rect.whole S32x256, w⟩] : sProp 𝕄)
      = oLoc d ↦[chunkSet (cL L) (iL L) 0]{fullShare} copied m d := chunk_copied m d L 0 g w hw
theorem copied_C1 (g : Buf (Elt F) (oLoc d)) (w : S32x256.Idx → Elt F .f32) (hw : w = View.read (Elt F) (xC1 L).view (m (xLoc d))) :
    ((oC1 L).view.loc (V d (cV L) (jV L)) ↦[(oC1 L).view.set]{fullShare} (oC1 L).view.writes (Elt F) g [⟨Rect.whole S32x256, w⟩] : sProp 𝕄)
      = oLoc d ↦[chunkSet (cL L) (iL L) 1]{fullShare} copied m d := chunk_copied m d L 1 g w hw
theorem copied_C2 (g : Buf (Elt F) (oLoc d)) (w : S32x256.Idx → Elt F .f32) (hw : w = View.read (Elt F) (xC2 L).view (m (xLoc d))) :
    ((oC2 L).view.loc (V d (cV L) (jV L)) ↦[(oC2 L).view.set]{fullShare} (oC2 L).view.writes (Elt F) g [⟨Rect.whole S32x256, w⟩] : sProp 𝕄)
      = oLoc d ↦[chunkSet (cL L) (iL L) 2]{fullShare} copied m d := chunk_copied m d L 2 g w hw
theorem copied_C3 (g : Buf (Elt F) (oLoc d)) (w : S32x256.Idx → Elt F .f32) (hw : w = View.read (Elt F) (xC3 L).view (m (xLoc d))) :
    ((oC3 L).view.loc (V d (cV L) (jV L)) ↦[(oC3 L).view.set]{fullShare} (oC3 L).view.writes (Elt F) g [⟨Rect.whole S32x256, w⟩] : sProp 𝕄)
      = oLoc d ↦[chunkSet (cL L) (iL L) 3]{fullShare} copied m d := chunk_copied m d L 3 g w hw
theorem copied_C4 (g : Buf (Elt F) (oLoc d)) (w : S32x256.Idx → Elt F .f32) (hw : w = View.read (Elt F) (xC4 L).view (m (xLoc d))) :
    ((oC4 L).view.loc (V d (cV L) (jV L)) ↦[(oC4 L).view.set]{fullShare} (oC4 L).view.writes (Elt F) g [⟨Rect.whole S32x256, w⟩] : sProp 𝕄)
      = oLoc d ↦[chunkSet (cL L) (iL L) 4]{fullShare} copied m d := chunk_copied m d L 4 g w hw
theorem copied_C5 (g : Buf (Elt F) (oLoc d)) (w : S32x256.Idx → Elt F .f32) (hw : w = View.read (Elt F) (xC5 L).view (m (xLoc d))) :
    ((oC5 L).view.loc (V d (cV L) (jV L)) ↦[(oC5 L).view.set]{fullShare} (oC5 L).view.writes (Elt F) g [⟨Rect.whole S32x256, w⟩] : sProp 𝕄)
      = oLoc d ↦[chunkSet (cL L) (iL L) 5]{fullShare} copied m d := chunk_copied m d L 5 g w hw
theorem copied_C6 (g : Buf (Elt F) (oLoc d)) (w : S32x256.Idx → Elt F .f32) (hw : w = View.read (Elt F) (xC6 L).view (m (xLoc d))) :
    ((oC6 L).view.loc (V d (cV L) (jV L)) ↦[(oC6 L).view.set]{fullShare} (oC6 L).view.writes (Elt F) g [⟨Rect.whole S32x256, w⟩] : sProp 𝕄)
      = oLoc d ↦[chunkSet (cL L) (iL L) 6]{fullShare} copied m d := chunk_copied m d L 6 g w hw
theorem copied_C7 (g : Buf (Elt F) (oLoc d)) (w : S32x256.Idx → Elt F .f32) (hw : w = View.read (Elt F) (xC7 L).view (m (xLoc d))) :
    ((oC7 L).view.loc (V d (cV L) (jV L)) ↦[(oC7 L).view.set]{fullShare} (oC7 L).view.writes (Elt F) g [⟨Rect.whole S32x256, w⟩] : sProp 𝕄)
      = oLoc d ↦[chunkSet (cL L) (iL L) 7]{fullShare} copied m d := chunk_copied m d L 7 g w hw
theorem copied_C8 (g : Buf (Elt F) (oLoc d)) (w : S32x256.Idx → Elt F .f32) (hw : w = View.read (Elt F) (xC8 L).view (m (xLoc d))) :
    ((oC8 L).view.loc (V d (cV L) (jV L)) ↦[(oC8 L).view.set]{fullShare} (oC8 L).view.writes (Elt F) g [⟨Rect.whole S32x256, w⟩] : sProp 𝕄)
      = oLoc d ↦[chunkSet (cL L) (iL L) 8]{fullShare} copied m d := chunk_copied m d L 8 g w hw
theorem copied_C9 (g : Buf (Elt F) (oLoc d)) (w : S32x256.Idx → Elt F .f32) (hw : w = View.read (Elt F) (xC9 L).view (m (xLoc d))) :
    ((oC9 L).view.loc (V d (cV L) (jV L)) ↦[(oC9 L).view.set]{fullShare} (oC9 L).view.writes (Elt F) g [⟨Rect.whole S32x256, w⟩] : sProp 𝕄)
      = oLoc d ↦[chunkSet (cL L) (iL L) 9]{fullShare} copied m d := chunk_copied m d L 9 g w hw
theorem copied_C10 (g : Buf (Elt F) (oLoc d)) (w : S32x256.Idx → Elt F .f32) (hw : w = View.read (Elt F) (xC10 L).view (m (xLoc d))) :
    ((oC10 L).view.loc (V d (cV L) (jV L)) ↦[(oC10 L).view.set]{fullShare} (oC10 L).view.writes (Elt F) g [⟨Rect.whole S32x256, w⟩] : sProp 𝕄)
      = oLoc d ↦[chunkSet (cL L) (iL L) 10]{fullShare} copied m d := chunk_copied m d L 10 g w hw
theorem copied_C11 (g : Buf (Elt F) (oLoc d)) (w : S32x256.Idx → Elt F .f32) (hw : w = View.read (Elt F) (xC11 L).view (m (xLoc d))) :
    ((oC11 L).view.loc (V d (cV L) (jV L)) ↦[(oC11 L).view.set]{fullShare} (oC11 L).view.writes (Elt F) g [⟨Rect.whole S32x256, w⟩] : sProp 𝕄)
      = oLoc d ↦[chunkSet (cL L) (iL L) 11]{fullShare} copied m d := chunk_copied m d L 11 g w hw
theorem copied_C12 (g : Buf (Elt F) (oLoc d)) (w : S32x256.Idx → Elt F .f32) (hw : w = View.read (Elt F) (xC12 L).view (m (xLoc d))) :
    ((oC12 L).view.loc (V d (cV L) (jV L)) ↦[(oC12 L).view.set]{fullShare} (oC12 L).view.writes (Elt F) g [⟨Rect.whole S32x256, w⟩] : sProp 𝕄)
      = oLoc d ↦[chunkSet (cL L) (iL L) 12]{fullShare} copied m d := chunk_copied m d L 12 g w hw
theorem copied_C13 (g : Buf (Elt F) (oLoc d)) (w : S32x256.Idx → Elt F .f32) (hw : w = View.read (Elt F) (xC13 L).view (m (xLoc d))) :
    ((oC13 L).view.loc (V d (cV L) (jV L)) ↦[(oC13 L).view.set]{fullShare} (oC13 L).view.writes (Elt F) g [⟨Rect.whole S32x256, w⟩] : sProp 𝕄)
      = oLoc d ↦[chunkSet (cL L) (iL L) 13]{fullShare} copied m d := chunk_copied m d L 13 g w hw
theorem copied_C14 (g : Buf (Elt F) (oLoc d)) (w : S32x256.Idx → Elt F .f32) (hw : w = View.read (Elt F) (xC14 L).view (m (xLoc d))) :
    ((oC14 L).view.loc (V d (cV L) (jV L)) ↦[(oC14 L).view.set]{fullShare} (oC14 L).view.writes (Elt F) g [⟨Rect.whole S32x256, w⟩] : sProp 𝕄)
      = oLoc d ↦[chunkSet (cL L) (iL L) 14]{fullShare} copied m d := chunk_copied m d L 14 g w hw
theorem copied_C15 (g : Buf (Elt F) (oLoc d)) (w : S32x256.Idx → Elt F .f32) (hw : w = View.read (Elt F) (xC15 L).view (m (xLoc d))) :
    ((oC15 L).view.loc (V d (cV L) (jV L)) ↦[(oC15 L).view.set]{fullShare} (oC15 L).view.writes (Elt F) g [⟨Rect.whole S32x256, w⟩] : sProp 𝕄)
      = oLoc d ↦[chunkSet (cL L) (iL L) 15]{fullShare} copied m d := chunk_copied m d L 15 g w hw

/-! The subcore's buffers, as the body's whole memrefs address them. -/
theorem pts_sB0 (f : Buf (Elt F) ((V d (cV L) (jV L)).loc cc0_scratch0)) :
    ((sB0 : Memref sig .scVector .vmem S32x256 .f32).view.loc (V d (cV L) (jV L)) ↦{fullShare} f : sProp 𝕄) = (V d (cV L) (jV L)).loc cc0_scratch0 ↦{fullShare} f := rfl
theorem pts_sB1 (f : Buf (Elt F) ((V d (cV L) (jV L)).loc cc0_scratch1)) :
    ((sB1 : Memref sig .scVector .vmem S32x256 .f32).view.loc (V d (cV L) (jV L)) ↦{fullShare} f : sProp 𝕄) = (V d (cV L) (jV L)).loc cc0_scratch1 ↦{fullShare} f := rfl
theorem pts_sB2 (f : Buf (Elt F) ((V d (cV L) (jV L)).loc cc0_scratch2)) :
    ((sB2 : Memref sig .scVector .vmem S32x256 .f32).view.loc (V d (cV L) (jV L)) ↦{fullShare} f : sProp 𝕄) = (V d (cV L) (jV L)).loc cc0_scratch2 ↦{fullShare} f := rfl
theorem pts_sB3 (f : Buf (Elt F) ((V d (cV L) (jV L)).loc cc0_scratch3)) :
    ((sB3 : Memref sig .scVector .vmem S32x256 .f32).view.loc (V d (cV L) (jV L)) ↦{fullShare} f : sProp 𝕄) = (V d (cV L) (jV L)).loc cc0_scratch3 ↦{fullShare} f := rfl
theorem pts_sB4 (f : Buf (Elt F) ((V d (cV L) (jV L)).loc cc0_scratch4)) :
    ((sB4 : Memref sig .scVector .vmem S32x256 .f32).view.loc (V d (cV L) (jV L)) ↦{fullShare} f : sProp 𝕄) = (V d (cV L) (jV L)).loc cc0_scratch4 ↦{fullShare} f := rfl
theorem pts_sB5 (f : Buf (Elt F) ((V d (cV L) (jV L)).loc cc0_scratch5)) :
    ((sB5 : Memref sig .scVector .vmem S32x256 .f32).view.loc (V d (cV L) (jV L)) ↦{fullShare} f : sProp 𝕄) = (V d (cV L) (jV L)).loc cc0_scratch5 ↦{fullShare} f := rfl
theorem pts_sB6 (f : Buf (Elt F) ((V d (cV L) (jV L)).loc cc0_scratch6)) :
    ((sB6 : Memref sig .scVector .vmem S32x256 .f32).view.loc (V d (cV L) (jV L)) ↦{fullShare} f : sProp 𝕄) = (V d (cV L) (jV L)).loc cc0_scratch6 ↦{fullShare} f := rfl
theorem pts_sB7 (f : Buf (Elt F) ((V d (cV L) (jV L)).loc cc0_scratch7)) :
    ((sB7 : Memref sig .scVector .vmem S32x256 .f32).view.loc (V d (cV L) (jV L)) ↦{fullShare} f : sProp 𝕄) = (V d (cV L) (jV L)).loc cc0_scratch7 ↦{fullShare} f := rfl
theorem pts_sB8 (f : Buf (Elt F) ((V d (cV L) (jV L)).loc cc0_scratch8)) :
    ((sB8 : Memref sig .scVector .vmem S32x256 .f32).view.loc (V d (cV L) (jV L)) ↦{fullShare} f : sProp 𝕄) = (V d (cV L) (jV L)).loc cc0_scratch8 ↦{fullShare} f := rfl
theorem pts_sB9 (f : Buf (Elt F) ((V d (cV L) (jV L)).loc cc0_scratch9)) :
    ((sB9 : Memref sig .scVector .vmem S32x256 .f32).view.loc (V d (cV L) (jV L)) ↦{fullShare} f : sProp 𝕄) = (V d (cV L) (jV L)).loc cc0_scratch9 ↦{fullShare} f := rfl
theorem pts_sB10 (f : Buf (Elt F) ((V d (cV L) (jV L)).loc cc0_scratch10)) :
    ((sB10 : Memref sig .scVector .vmem S32x256 .f32).view.loc (V d (cV L) (jV L)) ↦{fullShare} f : sProp 𝕄) = (V d (cV L) (jV L)).loc cc0_scratch10 ↦{fullShare} f := rfl
theorem pts_sB11 (f : Buf (Elt F) ((V d (cV L) (jV L)).loc cc0_scratch11)) :
    ((sB11 : Memref sig .scVector .vmem S32x256 .f32).view.loc (V d (cV L) (jV L)) ↦{fullShare} f : sProp 𝕄) = (V d (cV L) (jV L)).loc cc0_scratch11 ↦{fullShare} f := rfl
theorem pts_sB12 (f : Buf (Elt F) ((V d (cV L) (jV L)).loc cc0_scratch12)) :
    ((sB12 : Memref sig .scVector .vmem S32x256 .f32).view.loc (V d (cV L) (jV L)) ↦{fullShare} f : sProp 𝕄) = (V d (cV L) (jV L)).loc cc0_scratch12 ↦{fullShare} f := rfl
theorem pts_sB13 (f : Buf (Elt F) ((V d (cV L) (jV L)).loc cc0_scratch13)) :
    ((sB13 : Memref sig .scVector .vmem S32x256 .f32).view.loc (V d (cV L) (jV L)) ↦{fullShare} f : sProp 𝕄) = (V d (cV L) (jV L)).loc cc0_scratch13 ↦{fullShare} f := rfl

/-! ## The subcore's own scoped storage -/

theorem dma_scoped : ∀ k : Fin 28, (SemLoc.dma k : SemLoc sig).isScoped .scVector = true := by decide

/-- The subcore's own semaphores at zero: its twenty-eight DMA semaphores, and the rest. -/
theorem ownSems0_V :
    (ownSems0 (V d (cV L) (jV L)) : sProp 𝕄)
      = iprop((semVal (V d (cV L) (jV L), .dma cc0_scratch14.sem) 0
          ∗ semVal (V d (cV L) (jV L), .dma cc0_scratch15.sem) 0
          ∗ semVal (V d (cV L) (jV L), .dma cc0_scratch16.sem) 0
          ∗ semVal (V d (cV L) (jV L), .dma cc0_scratch17.sem) 0
          ∗ semVal (V d (cV L) (jV L), .dma cc0_scratch18.sem) 0
          ∗ semVal (V d (cV L) (jV L), .dma cc0_scratch19.sem) 0
          ∗ semVal (V d (cV L) (jV L), .dma cc0_scratch20.sem) 0
          ∗ semVal (V d (cV L) (jV L), .dma cc0_scratch21.sem) 0
          ∗ semVal (V d (cV L) (jV L), .dma cc0_scratch22.sem) 0
          ∗ semVal (V d (cV L) (jV L), .dma cc0_scratch23.sem) 0
          ∗ semVal (V d (cV L) (jV L), .dma cc0_scratch24.sem) 0
          ∗ semVal (V d (cV L) (jV L), .dma cc0_scratch25.sem) 0
          ∗ semVal (V d (cV L) (jV L), .dma cc0_scratch26.sem) 0
          ∗ semVal (V d (cV L) (jV L), .dma cc0_scratch27.sem) 0
          ∗ semVal (V d (cV L) (jV L), .dma cc0_scratch28.sem) 0
          ∗ semVal (V d (cV L) (jV L), .dma cc0_scratch29.sem) 0
          ∗ semVal (V d (cV L) (jV L), .dma cc0_scratch30.sem) 0
          ∗ semVal (V d (cV L) (jV L), .dma cc0_scratch31.sem) 0
          ∗ semVal (V d (cV L) (jV L), .dma cc0_scratch32.sem) 0
          ∗ semVal (V d (cV L) (jV L), .dma cc0_scratch33.sem) 0
          ∗ semVal (V d (cV L) (jV L), .dma cc0_scratch34.sem) 0
          ∗ semVal (V d (cV L) (jV L), .dma cc0_scratch35.sem) 0
          ∗ semVal (V d (cV L) (jV L), .dma cc0_scratch36.sem) 0
          ∗ semVal (V d (cV L) (jV L), .dma cc0_scratch37.sem) 0
          ∗ semVal (V d (cV L) (jV L), .dma cc0_scratch38.sem) 0
          ∗ semVal (V d (cV L) (jV L), .dma cc0_scratch39.sem) 0
          ∗ semVal (V d (cV L) (jV L), .dma cc0_scratch40.sem) 0
          ∗ semVal (V d (cV L) (jV L), .dma cc0_scratch41.sem) 0)
          ∗ bigSep (ownCells (V d (cV L) (jV L)) \ Finset.univ.image fun k : Fin 28 => ((V d (cV L) (jV L), SemLoc.dma k) : GSem nD τ sig))
              fun g => semVal g 0) := by
  unfold SparseCore.Cfg.ownSems0
  rw [bigSep_split_fin (ownCells (V d (cV L) (jV L))) (fun k : Fin 28 => ((V d (cV L) (jV L), SemLoc.dma k) : GSem nD τ sig))
      (fun a b e => by injection e with _ e2; injection e2) (fun k => mem_ownCells.mpr ⟨rfl, dma_scoped k⟩), bigSep_fin28]
  rfl

theorem sref_names : ∀ k : Fin 14, sig.names .scVector .vmem k = true := by decide
/-- The subcore's `k`-th vector-memory buffer. -/
abbrev sref (k : Fin 14) : Ref sig .scVector := ⟨.vmem, k, sref_names k⟩

/-- The subcore's own buffers, each whole at some contents: its fourteen 32-row buffers, and the rest. -/
theorem ownBufs_V :
    (ownBufs (V d (cV L) (jV L)) : sProp 𝕄)
      = iprop(((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ (∃ f, (V d (cV L) (jV L)).loc cc0_scratch10 ↦{fullShare} f)
          ∗ (∃ f, (V d (cV L) (jV L)).loc cc0_scratch11 ↦{fullShare} f)
          ∗ (∃ f, (V d (cV L) (jV L)).loc cc0_scratch12 ↦{fullShare} f)
          ∗ (∃ f, (V d (cV L) (jV L)).loc cc0_scratch13 ↦{fullShare} f))
          ∗ bigSep (ownRefs (τ := τ) (.scVector (cV L) (jV L)) \ Finset.univ.image fun k : Fin 14 => (Proc.scVector (cV L) (jV L)).devRef (sref k))
              fun b => iprop(∃ f, ((d, b) : Loc nD τ sig) ↦{fullShare} f)) := by
  unfold SparseCore.Cfg.ownBufs
  rw [bigSep_split_fin (ownRefs (τ := τ) (.scVector (cV L) (jV L))) (fun k : Fin 14 => (Proc.scVector (cV L) (jV L)).devRef (sref k))
      (fun a b e => Fin.ext (congrArg (fun r : Ref sig .scVector => r.idx.val) (Proc.devRef_injective _ e)))
      (fun k => SparseCore.Cfg.mem_ownRefs_of_owner (p := Proc.scVector (cV L) (jV L)) (b := (Proc.scVector (cV L) (jV L)).devRef (sref k)) rfl), bigSep_fin14]

end Tile

end Cert.Proof.KI

end
-- ==== Proof.KITile.lean ====
import proofs.«217873_g7627861918245_cont_sun_m_736_13_alg».proof.Proof.KIGeom

/-!
One vector subcore's task: its sixteen chunks copied from the argument to the result through its fourteen buffers.

Chunk `r` goes through buffer `r mod 14`, in on the buffer's in-semaphore, out on its out-semaphore. The first
fourteen in-copies are started together, each on its own semaphore into its own buffer; then, chunk by chunk, the
in-copy is waited for and the out-copy started; chunks 0 and 1 wait for their out-copy at once and start the
in-copies of chunks 14 and 15 into the buffers just emptied; the remaining fourteen out-copies are waited for at the
end. At any moment a semaphore has at most one copy outstanding and no buffer or chunk is touched between a copy's
start and its wait, so each wait returns the copy's source unchanged and its destination holding the source's
elements: after the out-copy of chunk `r`, the result's chunk `r` holds the argument's chunk `r`.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.BigSepFin

variable {F : FTy → Type}

local notation "𝕄" => MT nD τ sig (HIx 1) (Elt F) ℕ UU ℕ

/-- `W'` is `W` and waits recorded at the kernel's own index. -/
def WaitsGrow (W W' : Waits sig (HIx 1)) : Prop := ∀ p ∈ W', p ∈ W ∨ p.2 = none
theorem WaitsGrow.refl (W : Waits sig (HIx 1)) : WaitsGrow W W := fun _ hp => .inl hp
theorem WaitsGrow.insert {W W' : Waits sig (HIx 1)} (h : WaitsGrow W W') (sm : SemLoc sig) : WaitsGrow W (insert (sm, none) W') := by
  intro p hp
  rcases Finset.mem_insert.mp hp with rfl | hp
  · exact .inr rfl
  · exact h p hp

variable (m : (ℓ : Loc nD τ sig) → Buf (Elt F) ℓ) [FloatOps F]

section Tile

variable (d : Dev nD) (L : grid0.Coords)

theorem tile_body (hF : (K (F := F)).Facts) (O : CellTallies nD τ sig (HIx 1)) (W : Waits sig (HIx 1)) (hO : ∀ g, O g none = 0) :
    iprop(levAts (K (F := F)).L (K (F := F)).lev ∗ emp
        ∗ (bigSep Finset.univ fun r : Fin 16 => chunkIn m d (cL L) (iL L) r)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) oV (Memref.isWhole_whole _) sB0 (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _) sB9 (Memref.isWhole_whole _) sB10 (Memref.isWhole_whole _) sB11 (Memref.isWhole_whole _) sB12 (Memref.isWhole_whole _) sB13 (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41)
          fun _ => iprop((bigSep Finset.univ fun r : Fin 16 => chunkOut m d (cL L) (iL L) r) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V,
    bigSep_fin16, bigSep_fin16]
  iintro ⟨#Hlv, -, ⟨⟨Hx0, Ho0⟩, ⟨Hx1, Ho1⟩, ⟨Hx2, Ho2⟩, ⟨Hx3, Ho3⟩, ⟨Hx4, Ho4⟩, ⟨Hx5, Ho5⟩, ⟨Hx6, Ho6⟩, ⟨Hx7, Ho7⟩, ⟨Hx8, Ho8⟩, ⟨Hx9, Ho9⟩, ⟨Hx10, Ho10⟩, ⟨Hx11, Ho11⟩, ⟨Hx12, Ho12⟩, ⟨Hx13, Ho13⟩, ⟨Hx14, Ho14⟩, ⟨Hx15, Ho15⟩⟩,
    ⟨⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, ⟨%fb10, Hb10⟩, ⟨%fb11, Hb11⟩, ⟨%fb12, Hb12⟩, ⟨%fb13, Hb13⟩⟩, Hbufs⟩,
    ⟨⟨Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41⟩, Hsems⟩, HO⟩
  ihave Hmw := ((K (F := F)).mayWaits_none (thr := V d (cV L) (jV L)) hO) $$ Hlv
  ihave Hx0 := (Entails.of_eq (pts_xC0 (F := F) d L _).symm) $$ Hx0
  ihave Ho0 := (Entails.of_eq (pts_oC0 (F := F) d L _).symm) $$ Ho0
  ihave Hx1 := (Entails.of_eq (pts_xC1 (F := F) d L _).symm) $$ Hx1
  ihave Ho1 := (Entails.of_eq (pts_oC1 (F := F) d L _).symm) $$ Ho1
  ihave Hx2 := (Entails.of_eq (pts_xC2 (F := F) d L _).symm) $$ Hx2
  ihave Ho2 := (Entails.of_eq (pts_oC2 (F := F) d L _).symm) $$ Ho2
  ihave Hx3 := (Entails.of_eq (pts_xC3 (F := F) d L _).symm) $$ Hx3
  ihave Ho3 := (Entails.of_eq (pts_oC3 (F := F) d L _).symm) $$ Ho3
  ihave Hx4 := (Entails.of_eq (pts_xC4 (F := F) d L _).symm) $$ Hx4
  ihave Ho4 := (Entails.of_eq (pts_oC4 (F := F) d L _).symm) $$ Ho4
  ihave Hx5 := (Entails.of_eq (pts_xC5 (F := F) d L _).symm) $$ Hx5
  ihave Ho5 := (Entails.of_eq (pts_oC5 (F := F) d L _).symm) $$ Ho5
  ihave Hx6 := (Entails.of_eq (pts_xC6 (F := F) d L _).symm) $$ Hx6
  ihave Ho6 := (Entails.of_eq (pts_oC6 (F := F) d L _).symm) $$ Ho6
  ihave Hx7 := (Entails.of_eq (pts_xC7 (F := F) d L _).symm) $$ Hx7
  ihave Ho7 := (Entails.of_eq (pts_oC7 (F := F) d L _).symm) $$ Ho7
  ihave Hx8 := (Entails.of_eq (pts_xC8 (F := F) d L _).symm) $$ Hx8
  ihave Ho8 := (Entails.of_eq (pts_oC8 (F := F) d L _).symm) $$ Ho8
  ihave Hx9 := (Entails.of_eq (pts_xC9 (F := F) d L _).symm) $$ Hx9
  ihave Ho9 := (Entails.of_eq (pts_oC9 (F := F) d L _).symm) $$ Ho9
  ihave Hx10 := (Entails.of_eq (pts_xC10 (F := F) d L _).symm) $$ Hx10
  ihave Ho10 := (Entails.of_eq (pts_oC10 (F := F) d L _).symm) $$ Ho10
  ihave Hx11 := (Entails.of_eq (pts_xC11 (F := F) d L _).symm) $$ Hx11
  ihave Ho11 := (Entails.of_eq (pts_oC11 (F := F) d L _).symm) $$ Ho11
  ihave Hx12 := (Entails.of_eq (pts_xC12 (F := F) d L _).symm) $$ Hx12
  ihave Ho12 := (Entails.of_eq (pts_oC12 (F := F) d L _).symm) $$ Ho12
  ihave Hx13 := (Entails.of_eq (pts_xC13 (F := F) d L _).symm) $$ Hx13
  ihave Ho13 := (Entails.of_eq (pts_oC13 (F := F) d L _).symm) $$ Ho13
  ihave Hx14 := (Entails.of_eq (pts_xC14 (F := F) d L _).symm) $$ Hx14
  ihave Ho14 := (Entails.of_eq (pts_oC14 (F := F) d L _).symm) $$ Ho14
  ihave Hx15 := (Entails.of_eq (pts_xC15 (F := F) d L _).symm) $$ Hx15
  ihave Ho15 := (Entails.of_eq (pts_oC15 (F := F) d L _).symm) $$ Ho15
  ihave Hb0 := (Entails.of_eq (pts_sB0 (F := F) d L _).symm) $$ Hb0
  ihave Hb1 := (Entails.of_eq (pts_sB1 (F := F) d L _).symm) $$ Hb1
  ihave Hb2 := (Entails.of_eq (pts_sB2 (F := F) d L _).symm) $$ Hb2
  ihave Hb3 := (Entails.of_eq (pts_sB3 (F := F) d L _).symm) $$ Hb3
  ihave Hb4 := (Entails.of_eq (pts_sB4 (F := F) d L _).symm) $$ Hb4
  ihave Hb5 := (Entails.of_eq (pts_sB5 (F := F) d L _).symm) $$ Hb5
  ihave Hb6 := (Entails.of_eq (pts_sB6 (F := F) d L _).symm) $$ Hb6
  ihave Hb7 := (Entails.of_eq (pts_sB7 (F := F) d L _).symm) $$ Hb7
  ihave Hb8 := (Entails.of_eq (pts_sB8 (F := F) d L _).symm) $$ Hb8
  ihave Hb9 := (Entails.of_eq (pts_sB9 (F := F) d L _).symm) $$ Hb9
  ihave Hb10 := (Entails.of_eq (pts_sB10 (F := F) d L _).symm) $$ Hb10
  ihave Hb11 := (Entails.of_eq (pts_sB11 (F := F) d L _).symm) $$ Hb11
  ihave Hb12 := (Entails.of_eq (pts_sB12 (F := F) d L _).symm) $$ Hb12
  ihave Hb13 := (Entails.of_eq (pts_sB13 (F := F) d L _).symm) $$ Hb13
  sl_exec
  sl_step
  isplitl [Hx0 Ho0 Hx1 Ho1 Hx2 Ho2 Hx3 Ho3 Hx4 Ho4 Hx5 Ho5 Hx6 Ho6 Hx7 Ho7 Hx8 Ho8 Hx9 Ho9 Hx10 Ho10 Hx11 Ho11 Hx12 Ho12 Hx13 Ho13 Hx14 Ho14 Hx15 Ho15]
  · isplitl [Hx0 Ho0]
    · isplitl [Hx0]
      · iapply (Entails.of_eq (pts_xC0 (F := F) d L _)); iexact Hx0
      have hw : tile_body.sl.dma0_14 m d L fb0 = View.read (Elt F) (xC0 L).view (m (xLoc d)) := by
        unfold tile_body.sl.dma0_14 tile_body.sl.dma0
        simp only [ReadAs.apply_same, View.read_write_univ]
      iapply (Entails.of_eq (copied_C0 (F := F) m d L _ _ hw)); iexact Ho0
    isplitl [Hx1 Ho1]
    · isplitl [Hx1]
      · iapply (Entails.of_eq (pts_xC1 (F := F) d L _)); iexact Hx1
      have hw : tile_body.sl.dma0_16 m d L fb1 = View.read (Elt F) (xC1 L).view (m (xLoc d)) := by
        unfold tile_body.sl.dma0_16 tile_body.sl.dma0_1
        simp only [ReadAs.apply_same, View.read_write_univ]
      iapply (Entails.of_eq (copied_C1 (F := F) m d L _ _ hw)); iexact Ho1
    isplitl [Hx2 Ho2]
    · isplitl [Hx2]
      · iapply (Entails.of_eq (pts_xC2 (F := F) d L _)); iexact Hx2
      have hw : tile_body.sl.dma0_18 m d L fb2 = View.read (Elt F) (xC2 L).view (m (xLoc d)) := by
        unfold tile_body.sl.dma0_18 tile_body.sl.dma0_2
        simp only [ReadAs.apply_same, View.read_write_univ]
      iapply (Entails.of_eq (copied_C2 (F := F) m d L _ _ hw)); iexact Ho2
    isplitl [Hx3 Ho3]
    · isplitl [Hx3]
      · iapply (Entails.of_eq (pts_xC3 (F := F) d L _)); iexact Hx3
      have hw : tile_body.sl.dma0_19 m d L fb3 = View.read (Elt F) (xC3 L).view (m (xLoc d)) := by
        unfold tile_body.sl.dma0_19 tile_body.sl.dma0_3
        simp only [ReadAs.apply_same, View.read_write_univ]
      iapply (Entails.of_eq (copied_C3 (F := F) m d L _ _ hw)); iexact Ho3
    isplitl [Hx4 Ho4]
    · isplitl [Hx4]
      · iapply (Entails.of_eq (pts_xC4 (F := F) d L _)); iexact Hx4
      have hw : tile_body.sl.dma0_20 m d L fb4 = View.read (Elt F) (xC4 L).view (m (xLoc d)) := by
        unfold tile_body.sl.dma0_20 tile_body.sl.dma0_4
        simp only [ReadAs.apply_same, View.read_write_univ]
      iapply (Entails.of_eq (copied_C4 (F := F) m d L _ _ hw)); iexact Ho4
    isplitl [Hx5 Ho5]
    · isplitl [Hx5]
      · iapply (Entails.of_eq (pts_xC5 (F := F) d L _)); iexact Hx5
      have hw : tile_body.sl.dma0_21 m d L fb5 = View.read (Elt F) (xC5 L).view (m (xLoc d)) := by
        unfold tile_body.sl.dma0_21 tile_body.sl.dma0_5
        simp only [ReadAs.apply_same, View.read_write_univ]
      iapply (Entails.of_eq (copied_C5 (F := F) m d L _ _ hw)); iexact Ho5
    isplitl [Hx6 Ho6]
    · isplitl [Hx6]
      · iapply (Entails.of_eq (pts_xC6 (F := F) d L _)); iexact Hx6
      have hw : tile_body.sl.dma0_22 m d L fb6 = View.read (Elt F) (xC6 L).view (m (xLoc d)) := by
        unfold tile_body.sl.dma0_22 tile_body.sl.dma0_6
        simp only [ReadAs.apply_same, View.read_write_univ]
      iapply (Entails.of_eq (copied_C6 (F := F) m d L _ _ hw)); iexact Ho6
    isplitl [Hx7 Ho7]
    · isplitl [Hx7]
      · iapply (Entails.of_eq (pts_xC7 (F := F) d L _)); iexact Hx7
      have hw : tile_body.sl.dma0_23 m d L fb7 = View.read (Elt F) (xC7 L).view (m (xLoc d)) := by
        unfold tile_body.sl.dma0_23 tile_body.sl.dma0_7
        simp only [ReadAs.apply_same, View.read_write_univ]
      iapply (Entails.of_eq (copied_C7 (F := F) m d L _ _ hw)); iexact Ho7
    isplitl [Hx8 Ho8]
    · isplitl [Hx8]
      · iapply (Entails.of_eq (pts_xC8 (F := F) d L _)); iexact Hx8
      have hw : tile_body.sl.dma0_24 m d L fb8 = View.read (Elt F) (xC8 L).view (m (xLoc d)) := by
        unfold tile_body.sl.dma0_24 tile_body.sl.dma0_8
        simp only [ReadAs.apply_same, View.read_write_univ]
      iapply (Entails.of_eq (copied_C8 (F := F) m d L _ _ hw)); iexact Ho8
    isplitl [Hx9 Ho9]
    · isplitl [Hx9]
      · iapply (Entails.of_eq (pts_xC9 (F := F) d L _)); iexact Hx9
      have hw : tile_body.sl.dma0_25 m d L fb9 = View.read (Elt F) (xC9 L).view (m (xLoc d)) := by
        unfold tile_body.sl.dma0_25 tile_body.sl.dma0_9
        simp only [ReadAs.apply_same, View.read_write_univ]
      iapply (Entails.of_eq (copied_C9 (F := F) m d L _ _ hw)); iexact Ho9
    isplitl [Hx10 Ho10]
    · isplitl [Hx10]
      · iapply (Entails.of_eq (pts_xC10 (F := F) d L _)); iexact Hx10
      have hw : tile_body.sl.dma0_26 m d L fb10 = View.read (Elt F) (xC10 L).view (m (xLoc d)) := by
        unfold tile_body.sl.dma0_26 tile_body.sl.dma0_10
        simp only [ReadAs.apply_same, View.read_write_univ]
      iapply (Entails.of_eq (copied_C10 (F := F) m d L _ _ hw)); iexact Ho10
    isplitl [Hx11 Ho11]
    · isplitl [Hx11]
      · iapply (Entails.of_eq (pts_xC11 (F := F) d L _)); iexact Hx11
      have hw : tile_body.sl.dma0_27 m d L fb11 = View.read (Elt F) (xC11 L).view (m (xLoc d)) := by
        unfold tile_body.sl.dma0_27 tile_body.sl.dma0_11
        simp only [ReadAs.apply_same, View.read_write_univ]
      iapply (Entails.of_eq (copied_C11 (F := F) m d L _ _ hw)); iexact Ho11
    isplitl [Hx12 Ho12]
    · isplitl [Hx12]
      · iapply (Entails.of_eq (pts_xC12 (F := F) d L _)); iexact Hx12
      have hw : tile_body.sl.dma0_28 m d L fb12 = View.read (Elt F) (xC12 L).view (m (xLoc d)) := by
        unfold tile_body.sl.dma0_28 tile_body.sl.dma0_12
        simp only [ReadAs.apply_same, View.read_write_univ]
      iapply (Entails.of_eq (copied_C12 (F := F) m d L _ _ hw)); iexact Ho12
    isplitl [Hx13 Ho13]
    · isplitl [Hx13]
      · iapply (Entails.of_eq (pts_xC13 (F := F) d L _)); iexact Hx13
      have hw : tile_body.sl.dma0_29 m d L fb13 = View.read (Elt F) (xC13 L).view (m (xLoc d)) := by
        unfold tile_body.sl.dma0_29 tile_body.sl.dma0_13
        simp only [ReadAs.apply_same, View.read_write_univ]
      iapply (Entails.of_eq (copied_C13 (F := F) m d L _ _ hw)); iexact Ho13
    isplitl [Hx14 Ho14]
    · isplitl [Hx14]
      · iapply (Entails.of_eq (pts_xC14 (F := F) d L _)); iexact Hx14
      have hw : tile_body.sl.dma0_30 m d L fb0 = View.read (Elt F) (xC14 L).view (m (xLoc d)) := by
        unfold tile_body.sl.dma0_30 tile_body.sl.dma0_15
        simp only [ReadAs.apply_same, View.read_write_univ]
      iapply (Entails.of_eq (copied_C14 (F := F) m d L _ _ hw)); iexact Ho14
    isplitl [Hx15]
    · iapply (Entails.of_eq (pts_xC15 (F := F) d L _)); iexact Hx15
    have hw : tile_body.sl.dma0_31 m d L fb1 = View.read (Elt F) (xC15 L).view (m (xLoc d)) := by
      unfold tile_body.sl.dma0_31 tile_body.sl.dma0_17
      simp only [ReadAs.apply_same, View.read_write_univ]
    iapply (Entails.of_eq (copied_C15 (F := F) m d L _ _ hw)); iexact Ho15
  isplitl [Hb0 Hb1 Hb2 Hb3 Hb4 Hb5 Hb6 Hb7 Hb8 Hb9 Hb10 Hb11 Hb12 Hb13 Hbufs]
  · isplitl [Hb0 Hb1 Hb2 Hb3 Hb4 Hb5 Hb6 Hb7 Hb8 Hb9 Hb10 Hb11 Hb12 Hb13]
    · isplitl [Hb0]
      · iexists _; iapply (Entails.of_eq (pts_sB0 (F := F) d L _)); iexact Hb0
      isplitl [Hb1]
      · iexists _; iapply (Entails.of_eq (pts_sB1 (F := F) d L _)); iexact Hb1
      isplitl [Hb2]
      · iexists _; iapply (Entails.of_eq (pts_sB2 (F := F) d L _)); iexact Hb2
      isplitl [Hb3]
      · iexists _; iapply (Entails.of_eq (pts_sB3 (F := F) d L _)); iexact Hb3
      isplitl [Hb4]
      · iexists _; iapply (Entails.of_eq (pts_sB4 (F := F) d L _)); iexact Hb4
      isplitl [Hb5]
      · iexists _; iapply (Entails.of_eq (pts_sB5 (F := F) d L _)); iexact Hb5
      isplitl [Hb6]
      · iexists _; iapply (Entails.of_eq (pts_sB6 (F := F) d L _)); iexact Hb6
      isplitl [Hb7]
      · iexists _; iapply (Entails.of_eq (pts_sB7 (F := F) d L _)); iexact Hb7
      isplitl [Hb8]
      · iexists _; iapply (Entails.of_eq (pts_sB8 (F := F) d L _)); iexact Hb8
      isplitl [Hb9]
      · iexists _; iapply (Entails.of_eq (pts_sB9 (F := F) d L _)); iexact Hb9
      isplitl [Hb10]
      · iexists _; iapply (Entails.of_eq (pts_sB10 (F := F) d L _)); iexact Hb10
      isplitl [Hb11]
      · iexists _; iapply (Entails.of_eq (pts_sB11 (F := F) d L _)); iexact Hb11
      isplitl [Hb12]
      · iexists _; iapply (Entails.of_eq (pts_sB12 (F := F) d L _)); iexact Hb12
      iexists _; iapply (Entails.of_eq (pts_sB13 (F := F) d L _)); iexact Hb13
    · iexact Hbufs
  isplitl [Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hsems]
  · isplitl [Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41]
    · isplitl [Hs14]
      · iexact Hs14
      isplitl [Hs15]
      · iexact Hs15
      isplitl [Hs16]
      · iexact Hs16
      isplitl [Hs17]
      · iexact Hs17
      isplitl [Hs18]
      · iexact Hs18
      isplitl [Hs19]
      · iexact Hs19
      isplitl [Hs20]
      · iexact Hs20
      isplitl [Hs21]
      · iexact Hs21
      isplitl [Hs22]
      · iexact Hs22
      isplitl [Hs23]
      · iexact Hs23
      isplitl [Hs24]
      · iexact Hs24
      isplitl [Hs25]
      · iexact Hs25
      isplitl [Hs26]
      · iexact Hs26
      isplitl [Hs27]
      · iexact Hs27
      isplitl [Hs28]
      · iexact Hs28
      isplitl [Hs29]
      · iexact Hs29
      isplitl [Hs30]
      · iexact Hs30
      isplitl [Hs31]
      · iexact Hs31
      isplitl [Hs32]
      · iexact Hs32
      isplitl [Hs33]
      · iexact Hs33
      isplitl [Hs34]
      · iexact Hs34
      isplitl [Hs35]
      · iexact Hs35
      isplitl [Hs36]
      · iexact Hs36
      isplitl [Hs37]
      · iexact Hs37
      isplitl [Hs38]
      · iexact Hs38
      isplitl [Hs39]
      · iexact Hs39
      isplitl [Hs40]
      · iexact Hs40
      iexact Hs41
    · iexact Hsems
  iexists (insert (SemLoc.dma cc0_scratch29.sem, none) (insert (SemLoc.dma cc0_scratch28.sem, none) (insert (SemLoc.dma cc0_scratch41.sem, none) (insert (SemLoc.dma cc0_scratch40.sem, none) (insert (SemLoc.dma cc0_scratch39.sem, none) (insert (SemLoc.dma cc0_scratch38.sem, none) (insert (SemLoc.dma cc0_scratch37.sem, none) (insert (SemLoc.dma cc0_scratch36.sem, none) (insert (SemLoc.dma cc0_scratch35.sem, none) (insert (SemLoc.dma cc0_scratch34.sem, none) (insert (SemLoc.dma cc0_scratch33.sem, none) (insert (SemLoc.dma cc0_scratch32.sem, none) (insert (SemLoc.dma cc0_scratch31.sem, none) (insert (SemLoc.dma cc0_scratch30.sem, none) (insert (SemLoc.dma cc0_scratch15.sem, none) (insert (SemLoc.dma cc0_scratch14.sem, none) (insert (SemLoc.dma cc0_scratch27.sem, none) (insert (SemLoc.dma cc0_scratch26.sem, none) (insert (SemLoc.dma cc0_scratch25.sem, none) (insert (SemLoc.dma cc0_scratch24.sem, none) (insert (SemLoc.dma cc0_scratch23.sem, none) (insert (SemLoc.dma cc0_scratch22.sem, none) (insert (SemLoc.dma cc0_scratch21.sem, none) (insert (SemLoc.dma cc0_scratch20.sem, none) (insert (SemLoc.dma cc0_scratch19.sem, none) (insert (SemLoc.dma cc0_scratch18.sem, none) (insert (SemLoc.dma cc0_scratch17.sem, none) (insert (SemLoc.dma cc0_scratch16.sem, none) (insert (SemLoc.dma cc0_scratch29.sem, none) (insert (SemLoc.dma cc0_scratch15.sem, none) (insert (SemLoc.dma cc0_scratch28.sem, none) (insert (SemLoc.dma cc0_scratch14.sem, none) (W))))))))))))))))))))))))))))))))); isplitr
  · ipureintro
    exact ((((((((((((((((((((((((((((((((WaitsGrow.refl W).insert _).insert _).insert _).insert _).insert _).insert _).insert _).insert _).insert _).insert _).insert _).insert _).insert _).insert _).insert _).insert _).insert _).insert _).insert _).insert _).insert _).insert _).insert _).insert _).insert _).insert _).insert _).insert _).insert _).insert _).insert _).insert _
  · iexact HO

end Tile

end Cert.Proof.KI

end
-- ==== Proof.KILaunch.lean ====
import proofs.«217873_g7627861918245_cont_sun_m_736_13_alg».proof.Proof.KITile

/-!
The launch: from "each vector subcore's task copies its chunks" to the program's run.

The TensorCore's one call hands the two SparseCores the argument and the result, chunk by chunk; each sequencer hands
its sixteen subcores their chunks; every task hands its chunks back, the result's holding the argument's; joined
again, the result holds the argument's elements at every index, and the two arguments hold what they held.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.BigSepFin

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s) xV (Memref.isWhole_whole _) oV (Memref.isWhole_whole _) sB0 (Memref.isWhole_whole _) sB1 (Memref.isWhole_whole _) sB2 (Memref.isWhole_whole _) sB3 (Memref.isWhole_whole _) sB4 (Memref.isWhole_whole _) sB5 (Memref.isWhole_whole _) sB6 (Memref.isWhole_whole _) sB7 (Memref.isWhole_whole _) sB8 (Memref.isWhole_whole _) sB9 (Memref.isWhole_whole _) sB10 (Memref.isWhole_whole _) sB11 (Memref.isWhole_whole _) sB12 (Memref.isWhole_whole _) sB13 (Memref.isWhole_whole _) cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's chunks are its tasks' chunks: nothing to split. -/
theorem vecSplit : (K (F := F)).VecSplit' (P m) 0 := by
  intro d c
  show (bigSep Finset.univ fun i : Fin 16 => bigSep Finset.univ fun r : Fin 16 => chunkIn m d (Fin.cast nCore_zero c) i r) ⊢ |={Set.univ}=> iprop(
      (bigSep Finset.univ fun i : Fin ((K (F := F)).nSub 0) => bigSep Finset.univ fun r : Fin 16 => chunkIn m d (Fin.cast nCore_zero c) (Fin.cast nSub_zero i) r)
      ∗ ((bigSep Finset.univ fun i : Fin ((K (F := F)).nSub 0) => bigSep Finset.univ fun r : Fin 16 => chunkOut m d (Fin.cast nCore_zero c) (Fin.cast nSub_zero i) r)
          -∗ (bigSep Finset.univ fun i : Fin 16 => bigSep Finset.univ fun r : Fin 16 => chunkOut m d (Fin.cast nCore_zero c) i r)))
  rw [bigSep_tasks (F := F) (fun i => bigSep Finset.univ fun r : Fin 16 => chunkIn m d (Fin.cast nCore_zero c) i r),
    bigSep_tasks (F := F) (fun i => bigSep Finset.univ fun r : Fin 16 => chunkOut m d (Fin.cast nCore_zero c) i r)]
  iintro H; imodintro
  isplitl [H]; · iexact H
  iintro H; iexact H

/-! ## The launch element: the handshakes' rounds beside the transfers' counters at their unit -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays whole, and as their chunks -/

abbrev xPts (d : Dev nD) : sProp 𝕄 := xLoc d ↦{fullShare} m (xLoc d)
abbrev aPts (d : Dev nD) : sProp 𝕄 := aLoc d ↦{fullShare} m (aLoc d)
abbrev oPts (d : Dev nD) (f : Buf (Elt F) (oLoc d)) : sProp 𝕄 := oLoc d ↦{fullShare} f

omit [FloatOps F] in
theorem xPts_chunks (d : Dev nD) (f : Buf (Elt F) (xLoc d)) :
    (xLoc d ↦{fullShare} f : sProp 𝕄) = bigSep Finset.univ fun k : CIx => xLoc d ↦[chunkSetOf k]{fullShare} f := by
  rw [← pointsTo_biUnion Finset.univ (ℓ := xLoc d) chunkSetOf chunks_disjoint, chunks_cover]; try rfl
omit [FloatOps F] in
theorem oPts_chunks (d : Dev nD) (f : Buf (Elt F) (oLoc d)) :
    (oLoc d ↦{fullShare} f : sProp 𝕄) = bigSep Finset.univ fun k : CIx => oLoc d ↦[chunkSetOf k]{fullShare} f := by
  rw [← pointsTo_biUnion Finset.univ (ℓ := oLoc d) chunkSetOf chunks_disjoint, chunks_cover]; try rfl

omit [FloatOps F] in
/-- A conjunction over all chunks, nested by SparseCore, subcore, chunk. -/
theorem bigSep_nested (Φ : CIx → sProp 𝕄) :
    (bigSep Finset.univ fun c : Fin 2 => bigSep Finset.univ fun i : Fin 16 => bigSep Finset.univ fun r : Fin 16 => Φ (c, i, r)) = bigSep Finset.univ Φ := by
  rw [bigSep_univ_prod Φ]
  exact bigSep_congr fun c _ => (bigSep_univ_prod fun ir : Fin 16 × Fin 16 => Φ (c, ir)).symm

theorem st0_eq (d : Dev nD) :
    (bigSep Finset.univ fun c : Fin ((K (F := F)).nCore 0) => (P m).st 0 d c) = iprop(xPts m d ∗ oPts d (m (oLoc d))) := by
  show (bigSep Finset.univ fun c : Fin ((K (F := F)).nCore 0) =>
      bigSep Finset.univ fun i : Fin 16 => bigSep Finset.univ fun r : Fin 16 => chunkIn m d (Fin.cast nCore_zero c) i r) = _
  rw [bigSep_cores (F := F) (fun c => bigSep Finset.univ fun i : Fin 16 => bigSep Finset.univ fun r : Fin 16 => chunkIn m d c i r),
    bigSep_nested (F := F) (fun k => chunkIn m d k.1 k.2.1 k.2.2), bigSep_sep', ← xPts_chunks, ← oPts_chunks]

theorem dn0_eq (d : Dev nD) :
    (bigSep Finset.univ fun c : Fin ((K (F := F)).nCore 0) => (P m).dn 0 d c) = iprop(xPts m d ∗ oPts d (copied m d)) := by
  show (bigSep Finset.univ fun c : Fin ((K (F := F)).nCore 0) =>
      bigSep Finset.univ fun i : Fin 16 => bigSep Finset.univ fun r : Fin 16 => chunkOut m d (Fin.cast nCore_zero c) i r) = _
  rw [bigSep_cores (F := F) (fun c => bigSep Finset.univ fun i : Fin 16 => bigSep Finset.univ fun r : Fin 16 => chunkOut m d c i r),
    bigSep_nested (F := F) (fun k => chunkOut m d k.1 k.2.1 k.2.2), bigSep_sep', ← xPts_chunks, ← oPts_chunks]

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main leaves: the two arguments as they were, the result holding the first argument's elements. -/
abbrev FIN (d : Dev nD) : sProp 𝕄 := iprop(xPts m d ∗ aPts m d ∗ oPts d (copied m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ha, Ho⟩, -, -⟩, -⟩
  iapply ((K (F := F)).wp_run (D (F := F)) 𝒱 (EH := EH) (P := P m) κ d 0) $$ [Hst Hx Ho Ha]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  isplitl [Ha]; · iexact Ha
  iexact Ho

def fq (d : Dev nD) (s' : Phys nD τ sig (Elt F)) : Prop :=
  s'.mem.mem (oLoc d) = copied m d ∧ s'.mem.mem (xLoc d) = m (xLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := copied m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- After the run, on every device: the result holds the first argument's launch contents, and both arguments hold
    theirs. -/
def QC : PUnit × MemSt nD τ sig (Elt F) → Prop := fun r => ∀ c : Dev nD,
  r.2.mem (oLoc c) = copied m c ∧ r.2.mem (xLoc c) = m (xLoc c) ∧ r.2.mem (aLoc c) = m (aLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.LibScatterSet.lean ====
import Idealize.ShloMosaic.PureOps.ShapeOps
import Idealize.ShloMosaic.PureOps.Dims

/-!
A scatter whose body returns the update (`x.at[…].set(v)`) is a left fold that overwrites, update index by
update index, the operand's element at the index the update lands on. When every update index lands inside the
operand and two different update indices never land on the same element, the result at a landing index is the
update that landed there: later steps of the fold write elsewhere.
-/

namespace Idealize.ShloMosaic.ScatterSet

/-- A fold of overwriting steps, step `n` writing `v n` at `k n`, read at `k a` for a step `a` of the list, is
    `v a` when `k` is injective: the last write at `k a` is step `a`'s own. -/
theorem foldl_overwrite_apply {ι κ α : Type} [DecidableEq κ] (k : ι → κ) (hk : Function.Injective k) (v : ι → α)
    (x : κ → α) (l : List ι) :
    ∀ a ∈ l, (l.foldl (fun r n => fun i' => if i' = k n then v n else r i') x) (k a) = v a := by
  induction l using List.reverseRecOn with
  | nil => intro a ha; cases ha
  | append_singleton l b ih =>
    intro a ha
    rw [List.foldl_append]
    simp only [List.foldl_cons, List.foldl_nil]
    by_cases hab : a = b
    · subst hab; rw [if_pos rfl]
    · rw [if_neg (fun h => hab (hk h))]
      refine ih a ?_
      rcases List.mem_append.mp ha with h | h
      · exact h
      · exact absurd (List.mem_singleton.mp h) hab

/-- `Host.scatter` with the body "return the update", every update index `j` landing inside the operand at
    `g j` with `g` injective: the result at `g j` is update `j`. -/
theorem scatter_set_apply {α : Type} {s si u : Shape} {w : Nat} (d : ScatterDims s si u) (x : s.Idx → α)
    (idx : IVec si w) (upd : u.Idx → α) (g : u.Idx → s.Idx) (hg : ∀ j, d.resultIdx? j idx = some (g j))
    (hinj : Function.Injective g) (j : u.Idx) :
    Host.scatter d (fun _ b => b) x idx upd (g j) = upd j := by
  unfold Host.scatter
  have h := foldl_overwrite_apply (g ∘ u.rowMajor.symm) (hinj.comp u.rowMajor.symm.injective) (upd ∘ u.rowMajor.symm) x
    (List.finRange u.numel) (u.rowMajor j) (List.mem_finRange _)
  simp only [Function.comp_apply, Equiv.symm_apply_apply] at h
  rw [← h]
  refine congrFun (List.foldl_ext _ _ x fun r n _ => ?_) (g j)
  rw [hg]

end Idealize.ShloMosaic.ScatterSet
-- ==== Proof.Ref.lean ====
import proofs.«217873_g7627861918245_cont_sun_m_736_13_alg».proof.Defs
import proofs.«217873_g7627861918245_cont_sun_m_736_13_alg».proof.Proof.Gen.ReferenceIdeal.Read
import proofs.«217873_g7627861918245_cont_sun_m_736_13_alg».proof.Proof.LibScatterSet

/-!
The reference writes the whole of its first argument into rows `[0, 16384)` of its second (a scatter of one window
whose start index is the constant 0) and returns rows `[0, 16384)` of that: its first argument, element by element.
Update index `(p, q)` lands at operand index `(0 + p, 0 + q)`, always inside the 65536 × 256 operand, and different
update indices land on different elements; the slice reads operand index `(p, q)` back.
-/

noncomputable section

namespace Cert.ReferenceIdeal.RefValue

open Cert.ReferenceIdeal Cert.ReferenceIdeal.Gen Cert.ReferenceIdeal.Read
open Idealize.ShloMosaic Idealize.SL.Sem

variable {F : FTy → Type} [FloatOps F]

local notation "dims" => scatter_S65536x256_S1_S16384x256_01_n_0_0

/-- Every window starts at 0 on both operand axes: the one start index is the constant 0, on axis 0; axis 1 is not
    indexed. -/
theorem start_eq (j : S16384x256.Idx) (a : Fin S65536x256.rank) :
    (dims).start j (val_main_v0 (F := F)) a = 0 := by
  unfold ScatterDims.start
  split
  · rw [val_main_v0_apply, val_main_c_apply]; rfl
  · rfl

/-- The window coordinate on operand axis `a` is the update's coordinate on axis `a`. -/
theorem window_eq (j : S16384x256.Idx) (a : Fin S65536x256.rank) :
    (dims).window j a = (j a).val := by
  match a with
  | ⟨0, _⟩ => rfl
  | ⟨1, _⟩ => rfl

/-- Update index `j` lands at the operand index with `j`'s coordinates. -/
theorem lands (j : S16384x256.Idx) :
    (dims).resultIdx? j (val_main_v0 (F := F)) = some (idx_main_v2 j) := by
  unfold ScatterDims.resultIdx?
  have hin : ∀ a, 0 ≤ (dims).start j (val_main_v0 (F := F)) a + (dims).window j a
      ∧ (dims).start j (val_main_v0 (F := F)) a + (dims).window j a < S65536x256.size a := by
    intro a
    rw [start_eq, window_eq]
    match a with
    | ⟨0, _⟩ => have := (j 0).isLt; constructor <;> [omega; (show (0 : Int) + ((j 0).val : Int) < 65536; have : (j 0).val < 16384 := (j 0).isLt; omega)]
    | ⟨1, _⟩ => constructor <;> [omega; (show (0 : Int) + ((j 1).val : Int) < 256; have : (j 1).val < 256 := (j 1).isLt; omega)]
  rw [dif_pos hin]
  refine congrArg some (funext fun a => Fin.ext ?_)
  show ((dims).start j (val_main_v0 (F := F)) a + (dims).window j a).toNat = (idx_main_v2 j a).val
  rw [start_eq, window_eq]
  match a with
  | ⟨0, _⟩ => show ((0 : Int) + ((j 0).val : Int)).toNat = (j 0).val; omega
  | ⟨1, _⟩ => show ((0 : Int) + ((j 1).val : Int)).toNat = (j 1).val; omega

theorem idx_main_v2_injective : Function.Injective idx_main_v2 := by
  intro j j' h
  funext a
  match a with
  | ⟨0, _⟩ =>
    have e : (idx_main_v2 j 0).val = (idx_main_v2 j' 0).val := congrArg (fun k : S65536x256.Idx => (k 0).val) h
    exact Fin.ext e
  | ⟨1, _⟩ =>
    have e : (idx_main_v2 j 1).val = (idx_main_v2 j' 1).val := congrArg (fun k : S65536x256.Idx => (k 1).val) h
    exact Fin.ext e

/-- The reference's result is its first argument. -/
theorem result_eq (x0 : (⟨S16384x256, .f32⟩ : BufTy).Contents (Elt F)) (x1 : (⟨S65536x256, .f32⟩ : BufTy).Contents (Elt F)) :
    val_main_v2 (F := F) x0 x1 = x0 := by
  funext i
  rw [val_main_v2_apply]
  unfold val_main_v1
  exact ScatterSet.scatter_set_apply (dims) x1 (val_main_v0 (F := F)) x0 idx_main_v2 lands idx_main_v2_injective i

end Cert.ReferenceIdeal.RefValue

end
-- ==== Proof.lean ====
/-
  A row copy on the SparseCores against a scatter-then-slice on the host.

  The kernel deals the 16384 rows of its first argument to the 2 × 16 vector subcores, 512 rows each; a subcore moves
  its rows in sixteen chunks of 32 through fourteen buffers, each chunk into its buffer on that buffer's in-semaphore
  and out to the same rows of the result on its out-semaphore, a buffer reused only after its out-copy has been waited
  for. The chunks of all subcores are pairwise disjoint and cover the array, so the result ends holding the first
  argument's elements at every index; neither argument is written.

  The reference writes the first argument into rows [0, 16384) of the second (one scatter window at the constant
  start 0) and returns those rows: again the first argument, element by element (Proof/Ref.lean).

  So both programs end with the first argument as their result, and the two results are equal with no arithmetic at
  all: nothing of the precondition is used. The idealization rewrote nothing, so `preserves` has no conjunct.
-/
import proofs.«217873_g7627861918245_cont_sun_m_736_13_alg».proof.Defs
import proofs.«217873_g7627861918245_cont_sun_m_736_13_alg».proof.Proof.Gen.Kernel
import proofs.«217873_g7627861918245_cont_sun_m_736_13_alg».proof.Proof.Gen.Kernel.Skeleton
import proofs.«217873_g7627861918245_cont_sun_m_736_13_alg».proof.Proof.Gen.KernelIdeal
import proofs.«217873_g7627861918245_cont_sun_m_736_13_alg».proof.Proof.Gen.KernelIdeal.Skeleton
import proofs.«217873_g7627861918245_cont_sun_m_736_13_alg».proof.Proof.Gen.ReferenceIdeal
import proofs.«217873_g7627861918245_cont_sun_m_736_13_alg».proof.Proof.Gen.ReferenceIdeal.Run
import proofs.«217873_g7627861918245_cont_sun_m_736_13_alg».proof.Proof.Gen.ReferenceIdeal.Read
import proofs.«217873_g7627861918245_cont_sun_m_736_13_alg».proof.Proof.Gen.Pre_finite_inputs
import proofs.«217873_g7627861918245_cont_sun_m_736_13_alg».proof.Proof.KBLaunch
import proofs.«217873_g7627861918245_cont_sun_m_736_13_alg».proof.Proof.KILaunch
import proofs.«217873_g7627861918245_cont_sun_m_736_13_alg».proof.Proof.Ref
import Idealize.ShloMosaic.Adequacy
import Idealize.ShloMosaic.Init

noncomputable section

namespace Cert.Proof

open Idealize.ShloMosaic Idealize.SL.Sem

/-- The kernel as printed runs to the end and leaves both arguments as they were. -/
theorem frame_kernel : Cert.frame_Kernel := fun m ρ _ =>
  (θ_run Cert.Kernel.defs _ _).mono (fun _ h c => ⟨(h c).2.1, (h c).2.2⟩) (Cert.Proof.KB.run_main (F := Bits) m ρ)

/-- So does its idealization. -/
theorem frame_kernelIdeal : Cert.frame_KernelIdeal := fun m ρ _ =>
  (θ_run Cert.KernelIdeal.defs _ _).mono (fun _ h c => ⟨(h c).2.1, (h c).2.2⟩) (Cert.Proof.KI.run_main (F := Ideal) m ρ)

/-- The reference's frame is its run with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the first argument: the kernel's by the copy, the reference's by the scatter read back through
    the slice; the two programs start from the same first argument. -/
theorem algebraic : Cert.algebraic_KernelIdeal_ReferenceIdeal := by
  intro m ρ m' ρ' _ hagree
  refine ⟨fun c => Cert.Proof.KI.copied m c, (θ_run Cert.KernelIdeal.defs _ _).mono (fun _ h c => h c) (Cert.Proof.KI.run_main (F := Ideal) m ρ), ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v2_eq (F := Ideal) _ _).trans (Cert.ReferenceIdeal.RefValue.result_eq (F := Ideal) _ _)).trans ?_
  rw [(hagree c).1]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
